-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x4096 : Shape := ⟨3, ![8, 2048, 4096]⟩
abbrev S8388608 : Shape := ⟨1, ![8388608]⟩
abbrev S4096x32 : Shape := ⟨2, ![4096, 32]⟩
abbrev S4096 : Shape := ⟨1, ![4096]⟩
abbrev S_ : Shape := ⟨0, ![]⟩

class Facts : Prop where
  bcast_S_S8x2048x4096 : S_.BroadcastsInDim S8x2048x4096 (![] : Fin 0 → Fin S8x2048x4096.rank)
  reducesTo_S8x2048x4096_S_d0_1_2 : S8x2048x4096.ReducesTo [0, 1, 2] S_
  h_S_ : 0 < S_.numel
  bcast_S_S4096x32 : S_.BroadcastsInDim S4096x32 (![] : Fin 0 → Fin S4096x32.rank)
  reducesTo_S4096x32_S_d0_1 : S4096x32.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8x2048x4096 .f32) (main_arg1 : IVec S8388608 32) (main_arg2 : FVec F S4096x32 .f32) (main_arg3 : IVec S4096x32 32) (main_arg4 : FVec F S4096 .f32) : IVec S_ 1 :=
  let main_v0 : FVec F S8x2048x4096 .f32 := Host.absf main_arg0
  let main_cst : FVec F S_ .f32 := constant S_ .f32 0x7F800000#32
  let main_v1 : FVec F S8x2048x4096 .f32 := broadcastInDim S8x2048x4096 ![] bcast_S_S8x2048x4096 main_cst
  let main_v2 : IVec S8x2048x4096 1 := cmpf .olt main_v0 main_v1
  let main_c : IVec S_ 1 := constantI S_ 1 1#1
  let main_v3 : IVec S_ 1 := (fun x v => Host.reduce IntOp.andi x v reducesTo_S8x2048x4096_S_d0_1_2 h_S_) main_v2 main_c
  let main_v4 : FVec F S4096x32 .f32 := Host.absf main_arg2
  let main_cst_0 : FVec F S_ .f32 := constant S_ .f32 0x7F800000#32
  let main_v5 : FVec F S4096x32 .f32 := broadcastInDim S4096x32 ![] bcast_S_S4096x32 main_cst_0
  let main_v6 : IVec S4096x32 1 := cmpf .olt main_v4 main_v5
  let main_c_1 : IVec S_ 1 := constantI S_ 1 1#1
  let main_v7 : IVec S_ 1 := (fun x v => Host.reduce IntOp.andi x v reducesTo_S4096x32_S_d0_1 h_S_) main_v6 main_c_1
  let main_v8 : IVec S_ 1 := andi main_v3 main_v7
  let main_v9 : FVec F S4096 .f32 := Host.absf main_arg4
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8x2048x4096 : Shape := ⟨3, ![8, 2048, 4096]⟩
abbrev S8388608 : Shape := ⟨1, ![8388608]⟩
abbrev S4096x32 : Shape := ⟨2, ![4096, 32]⟩
abbrev S4096 : Shape := ⟨1, ![4096]⟩
abbrev S_ : Shape := ⟨0, ![]⟩
abbrev S8388608x1 : Shape := ⟨2, ![8388608, 1]⟩
abbrev S8388608x2 : Shape := ⟨2, ![8388608, 2]⟩
abbrev S16777216 : Shape := ⟨1, ![16777216]⟩
abbrev S4096x32x128 : Shape := ⟨3, ![4096, 32, 128]⟩
abbrev S4096x32x1 : Shape := ⟨3, ![4096, 32, 1]⟩
abbrev S4096x4096 : Shape := ⟨2, ![4096, 4096]⟩
abbrev S16384x4096 : Shape := ⟨2, ![16384, 4096]⟩
abbrev S1x4096 : Shape := ⟨2, ![1, 4096]⟩
abbrev S2048x512 : Shape := ⟨2, ![2048, 512]⟩
abbrev S1x2048 : Shape := ⟨2, ![1, 2048]⟩
abbrev S2048x2048 : Shape := ⟨2, ![2048, 2048]⟩

abbrev nBuf : Space → Nat
  | .hbm => 65
  | .vmem => 8
  | .smem => 0
  | _ => 0

abbrev bufTy : (tb : Table) → Fin (tcTables nBuf tb) → BufTy
  | .hbm, ⟨0, _⟩ => ⟨S8x2048x4096, .f32⟩
  | .hbm, ⟨1, _⟩ => ⟨S8388608, .i32⟩
  | .hbm, ⟨2, _⟩ => ⟨S4096x32, .f32⟩
  | .hbm, ⟨3, _⟩ => ⟨S4096x32, .i32⟩
  | .hbm, ⟨4, _⟩ => ⟨S4096, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S_, .i32⟩
  | .hbm, ⟨10, _⟩ => ⟨S_, .i32⟩
  | .hbm, ⟨11, _⟩ => ⟨S8388608, .i32⟩
  | .hbm, ⟨12, _⟩ => ⟨S8388608, .i32⟩
  | .hbm, ⟨13, _⟩ => ⟨S_, .i32⟩
  | .hbm, ⟨14, _⟩ => ⟨S8388608, .i32⟩
  | .hbm, ⟨15, _⟩ => ⟨S8388608, .i1⟩
  | .hbm, ⟨16, _⟩ => ⟨S_, .i32⟩
  | .hbm, ⟨17, _⟩ => ⟨S8388608, .i32⟩
  | .hbm, ⟨18, _⟩ => ⟨S8388608, .i1⟩
  | .hbm, ⟨19, _⟩ => ⟨S_, .i32⟩
  | .hbm, ⟨20, _⟩ => ⟨S_, .i1⟩
  | .hbm, ⟨21, _⟩ => ⟨S8388608, .i1⟩
  | .hbm, ⟨22, _⟩ => ⟨S8388608, .i1⟩
  | .hbm, ⟨23, _⟩ => ⟨S8388608, .i1⟩
  | .hbm, ⟨24, _⟩ => ⟨S8388608, .i32⟩
  | .hbm, ⟨25, _⟩ => ⟨S8388608, .i32⟩
  | .hbm, ⟨26, _⟩ => ⟨S8388608, .i32⟩
  | .hbm, ⟨27, _⟩ => ⟨S8388608, .f32⟩
  | .hbm, ⟨28, _⟩ => ⟨S_, .i32⟩
  | .hbm, ⟨29, _⟩ => ⟨S_, .i32⟩
  | .hbm, ⟨30, _⟩ => ⟨S8388608, .i32⟩
  | .hbm, ⟨31, _⟩ => ⟨S8388608, .i32⟩
  | .hbm, ⟨32, _⟩ => ⟨S8388608, .i32⟩
  | .hbm, ⟨33, _⟩ => ⟨S_, .i32⟩
  | .hbm, ⟨34, _⟩ => ⟨S8388608, .i32⟩
  | .hbm, ⟨35, _⟩ => ⟨S8388608, .i1⟩
  | .hbm, ⟨36, _⟩ => ⟨S8388608, .i32⟩
  | .hbm, ⟨37, _⟩ => ⟨S8388608, .i32⟩
  | .hbm, ⟨38, _⟩ => ⟨S_, .i32⟩
  | .hbm, ⟨39, _⟩ => ⟨S8388608, .i32⟩
  | .hbm, ⟨40, _⟩ => ⟨S8388608, .i1⟩
  | .hbm, ⟨41, _⟩ => ⟨S8388608, .i1⟩
  | .hbm, ⟨42, _⟩ => ⟨S_, .i32⟩
  | .hbm, ⟨43, _⟩ => ⟨S8388608, .i32⟩
  | .hbm, ⟨44, _⟩ => ⟨S8388608, .i32⟩
  | .hbm, ⟨45, _⟩ => ⟨S8388608, .i32⟩
  | .hbm, ⟨46, _⟩ => ⟨S8388608, .f32⟩
  | .hbm, ⟨47, _⟩ => ⟨S8388608x1, .f32⟩
  | .hbm, ⟨48, _⟩ => ⟨S8388608x1, .f32⟩
  | .hbm, ⟨49, _⟩ => ⟨S8388608x2, .f32⟩
  | .hbm, ⟨50, _⟩ => ⟨S16777216, .f32⟩
  | .hbm, ⟨51, _⟩ => ⟨S4096x32x128, .f32⟩
  | .hbm, ⟨52, _⟩ => ⟨S4096x32x1, .f32⟩
  | .hbm, ⟨53, _⟩ => ⟨S4096x32x1, .i32⟩
  | .hbm, ⟨54, _⟩ => ⟨S4096x32x1, .f32⟩
  | .hbm, ⟨55, _⟩ => ⟨S4096x32x128, .f32⟩
  | .hbm, ⟨56, _⟩ => ⟨S4096x32x128, .f32⟩
  | .hbm, ⟨57, _⟩ => ⟨S4096x32x128, .f32⟩
  | .hbm, ⟨58, _⟩ => ⟨S4096x32x128, .f32⟩
  | .hbm, ⟨59, _⟩ => ⟨S4096x4096, .f32⟩
  | .hbm, ⟨60, _⟩ => ⟨S4096x4096, .bf16⟩
  | .hbm, ⟨61, _⟩ => ⟨S16384x4096, .f32⟩
  | .hbm, ⟨62, _⟩ => ⟨S1x4096, .f32⟩
  | .hbm, ⟨63, _⟩ => ⟨S16384x4096, .f32⟩
  | .hbm, ⟨64, _⟩ => ⟨S8x2048x4096, .f32⟩
  | .local _ .vmem, ⟨0, _⟩ => ⟨S2048x512, .f32⟩
  | .local _ .vmem, ⟨1, _⟩ => ⟨S2048x512, .f32⟩
  | .local _ .vmem, ⟨2, _⟩ => ⟨S2048x512, .bf16⟩
  | .local _ .vmem, ⟨3, _⟩ => ⟨S2048x512, .bf16⟩
  | .local _ .vmem, ⟨4, _⟩ => ⟨S1x2048, .f32⟩
  | .local _ .vmem, ⟨5, _⟩ => ⟨S1x2048, .f32⟩
  | .local _ .vmem, ⟨6, _⟩ => ⟨S2048x2048, .f32⟩
  | .local _ .vmem, ⟨7, _⟩ => ⟨S2048x2048, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_1 : Ref sig .tc := ⟨.hbm, 13, rfl⟩
abbrev main_call0_v5 : Ref sig .tc := ⟨.hbm, 14, rfl⟩
abbrev main_call0_v6 : Ref sig .tc := ⟨.hbm, 15, rfl⟩
abbrev main_call0_c_2 : Ref sig .tc := ⟨.hbm, 16, rfl⟩
abbrev main_call0_v7 : Ref sig .tc := ⟨.hbm, 17, rfl⟩
abbrev main_call0_v8 : Ref sig .tc := ⟨.hbm, 18, rfl⟩
abbrev main_call0_c_3 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_v0 : Ref sig .tc := ⟨.hbm, 26, rfl⟩
abbrev main_v1 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v2 : Ref sig .tc := ⟨.hbm, 45, rfl⟩
abbrev main_v3 : Ref sig .tc := ⟨.hbm, 46, rfl⟩
abbrev main_v4 : Ref sig .tc := ⟨.hbm, 47, rfl⟩
abbrev main_v5 : Ref sig .tc := ⟨.hbm, 48, rfl⟩
abbrev main_v6 : Ref sig .tc := ⟨.hbm, 49, rfl⟩
abbrev main_v7 : Ref sig .tc := ⟨.hbm, 50, rfl⟩
abbrev main_v8 : Ref sig .tc := ⟨.hbm, 51, rfl⟩
abbrev main_v9 : Ref sig .tc := ⟨.hbm, 52, rfl⟩
abbrev main_v10 : Ref sig .tc := ⟨.hbm, 53, rfl⟩
abbrev main_v11 : Ref sig .tc := ⟨.hbm, 54, rfl⟩
abbrev main_v12 : Ref sig .tc := ⟨.hbm, 55, rfl⟩
abbrev main_v13 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S8388608 : S_.BroadcastsInDim S8388608 (![] : Fin 0 → Fin S8388608.rank)
  bcast_S8388608_S8388608x1_0 : S8388608.BroadcastsInDim S8388608x1 (![0] : Fin 1 → Fin S8388608x1.rank)
  concatenates_S8388608x1_S8388608x1_S8388608x2_d1 : Shape.Concatenates [S8388608x1, S8388608x1] S8388608x2 1
  shapeCasts_S8388608x2_S16777216 : S8388608x2.ShapeCasts S16777216
  shapeCasts_S16777216_S4096x32x128 : S16777216.ShapeCasts S4096x32x128
  bcast_S4096x32_S4096x32x1_0_1 : S4096x32.BroadcastsInDim S4096x32x1 (![0, 1] : Fin 2 → Fin S4096x32x1.rank)
  bcast_S4096x32x1_S4096x32x128_0_1_2 : S4096x32x1.BroadcastsInDim S4096x32x128 (![0, 1, 2] : Fin 3 → Fin S4096x32x128.rank)
  shapeCasts_S4096x32x128_S4096x4096 : S4096x32x128.ShapeCasts S4096x4096
  bitsLt_bf16_f32 : FTy.bits .bf16 < FTy.bits .f32
  shapeCasts_S8x2048x4096_S16384x4096 : S8x2048x4096.ShapeCasts S16384x4096
  shapeCasts_S4096_S1x4096 : S4096.ShapeCasts S1x4096
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S2048x2048 : S1x2048.Broadcasts S2048x2048
  inb_S2048x2048_S2048x2048_0_0 : ∀ a, (![0, 0] : Fin 2 → Nat) a + S2048x2048.size a ≤ S2048x2048.size a
  h_S2048x2048 : 0 < S2048x2048.numel
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  shapeCasts_S2048x2048_S2048x2048 : S2048x2048.ShapeCasts S2048x2048
  shapeCasts_S16384x4096_S8x2048x4096 : S16384x4096.ShapeCasts S8x2048x4096
  dot_S2048x512_S2048x512_S2048x2048_1_1_0_0_n_n_wf : DotDims.WF S2048x512 S2048x512 S2048x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S16384x4096.size a
  hwx0_0 : ∀ i : grid0.Coords, EltTy.bits .f32 = 32 ∨ (Rect.block (s := S16384x4096) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S4096x4096.size a
  hwx0_1 : ∀ i : grid0.Coords, EltTy.bits .bf16 = 32 ∨ (Rect.block (s := S4096x4096) S2048x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x4096.size a
  hwx0_2 : ∀ i : grid0.Coords, EltTy.bits .f32 = 32 ∨ (Rect.block (s := S1x4096) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S16384x4096.size a
  hwx0_3 : ∀ i : grid0.Coords, EltTy.bits .f32 = 32 ∨ (Rect.block (s := S16384x4096) S2048x2048.size (cc0_transform_3 i) (hinb0_3 i)).WholeWords (EltTy.packing .f32)

variable [Facts₀]

def dot_S2048x512_S2048x512_S2048x2048_1_1_0_0_n_n : DotDims S2048x512 S2048x512 S2048x2048 where
  lhsContracting := [1]
  rhsContracting := [1]
  lhsNonContracting := [0]
  rhsNonContracting := [0]
  lhsBatch := []
  rhsBatch := []
  wf := dot_S2048x512_S2048x512_S2048x2048_1_1_0_0_n_n_wf

abbrev win0_0 : Pipeline.Window sig grid0 :=
  Pipeline.Window.ofSpec (Memref.whole main_v18) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S2048x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x2048x4096 : Shape := ⟨3, ![8, 2048, 4096]⟩
abbrev S8388608 : Shape := ⟨1, ![8388608]⟩
abbrev S4096x32 : Shape := ⟨2, ![4096, 32]⟩
abbrev S4096 : Shape := ⟨1, ![4096]⟩
abbrev S_ : Shape := ⟨0, ![]⟩
abbrev S8388608x1 : Shape := ⟨2, ![8388608, 1]⟩
abbrev S8388608x2 : Shape := ⟨2, ![8388608, 2]⟩
abbrev S16777216 : Shape := ⟨1, ![16777216]⟩
abbrev S4096x32x128 : Shape := ⟨3, ![4096, 32, 128]⟩
abbrev S4096x32x1 : Shape := ⟨3, ![4096, 32, 1]⟩
abbrev S4096x4096 : Shape := ⟨2, ![4096, 4096]⟩
abbrev S1x1x4096 : Shape := ⟨3, ![1, 1, 4096]⟩

abbrev nBuf : Space → Nat
  | .hbm => 63
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S8388608, .i32⟩
  | .hbm, ⟨2, _⟩ => ⟨S4096x32, .f32⟩
  | .hbm, ⟨3, _⟩ => ⟨S4096x32, .i32⟩
  | .hbm, ⟨4, _⟩ => ⟨S4096, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S_, .i32⟩
  | .hbm, ⟨10, _⟩ => ⟨S_, .i32⟩
  | .hbm, ⟨11, _⟩ => ⟨S8388608, .i32⟩
  | .hbm, ⟨12, _⟩ => ⟨S8388608, .i32⟩
  | .hbm, ⟨13, _⟩ => ⟨S_, .i32⟩
  | .hbm, ⟨14, _⟩ => ⟨S8388608, .i32⟩
  | .hbm, ⟨15, _⟩ => ⟨S8388608, .i1⟩
  | .hbm, ⟨16, _⟩ => ⟨S_, .i32⟩
  | .hbm, ⟨17, _⟩ => ⟨S8388608, .i32⟩
  | .hbm, ⟨18, _⟩ => ⟨S8388608, .i1⟩
  | .hbm, ⟨19, _⟩ => ⟨S_, .i32⟩
  | .hbm, ⟨20, _⟩ => ⟨S_, .i1⟩
  | .hbm, ⟨21, _⟩ => ⟨S8388608, .i1⟩
  | .hbm, ⟨22, _⟩ => ⟨S8388608, .i1⟩
  | .hbm, ⟨23, _⟩ => ⟨S8388608, .i1⟩
  | .hbm, ⟨24, _⟩ => ⟨S8388608, .i32⟩
  | .hbm, ⟨25, _⟩ => ⟨S8388608, .i32⟩
  | .hbm, ⟨26, _⟩ => ⟨S8388608, .i32⟩
  | .hbm, ⟨27, _⟩ => ⟨S_, .i32⟩
  | .hbm, ⟨28, _⟩ => ⟨S_, .i32⟩
  | .hbm, ⟨29, _⟩ => ⟨S8388608, .i32⟩
  | .hbm, ⟨30, _⟩ => ⟨S8388608, .i32⟩
  | .hbm, ⟨31, _⟩ => ⟨S8388608, .i32⟩
  | .hbm, ⟨32, _⟩ => ⟨S_, .i32⟩
  | .hbm, ⟨33, _⟩ => ⟨S8388608, .i32⟩
  | .hbm, ⟨34, _⟩ => ⟨S8388608, .i1⟩
  | .hbm, ⟨35, _⟩ => ⟨S8388608, .i32⟩
  | .hbm, ⟨36, _⟩ => ⟨S8388608, .i32⟩
  | .hbm, ⟨37, _⟩ => ⟨S_, .i32⟩
  | .hbm, ⟨38, _⟩ => ⟨S8388608, .i32⟩
  | .hbm, ⟨39, _⟩ => ⟨S8388608, .i1⟩
  | .hbm, ⟨40, _⟩ => ⟨S8388608, .i1⟩
  | .hbm, ⟨41, _⟩ => ⟨S_, .i32⟩
  | .hbm, ⟨42, _⟩ => ⟨S8388608, .i32⟩
  | .hbm, ⟨43, _⟩ => ⟨S8388608, .i32⟩
  | .hbm, ⟨44, _⟩ => ⟨S8388608, .i32⟩
  | .hbm, ⟨45, _⟩ => ⟨S8388608x1, .i32⟩
  | .hbm, ⟨46, _⟩ => ⟨S8388608x1, .i32⟩
  | .hbm, ⟨47, _⟩ => ⟨S8388608x2, .i32⟩
  | .hbm, ⟨48, _⟩ => ⟨S16777216, .i32⟩
  | .hbm, ⟨49, _⟩ => ⟨S16777216, .f32⟩
  | .hbm, ⟨50, _⟩ => ⟨S4096x32x128, .f32⟩
  | .hbm, ⟨51, _⟩ => ⟨S4096x32x1, .f32⟩
  | .hbm, ⟨52, _⟩ => ⟨S4096x32x1, .i32⟩
  | .hbm, ⟨53, _⟩ => ⟨S4096x32x1, .f32⟩
  | .hbm, ⟨54, _⟩ => ⟨S4096x32x128, .f32⟩
  | .hbm, ⟨55, _⟩ => ⟨S4096x32x128, .f32⟩
  | .hbm, ⟨56, _⟩ => ⟨S4096x32x128, .f32⟩
  | .hbm, ⟨57, _⟩ => ⟨S4096x32x128, .f32⟩
  | .hbm, ⟨58, _⟩ => ⟨S4096x4096, .f32⟩
  | .hbm, ⟨59, _⟩ => ⟨S8x2048x4096, .f32⟩
  | .hbm, ⟨60, _⟩ => ⟨S1x1x4096, .f32⟩
  | .hbm, ⟨61, _⟩ => ⟨S8x2048x4096, .f32⟩
  | .hbm, ⟨62, _⟩ => ⟨S8x2048x4096, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_1 : Ref sig .tc := ⟨.hbm, 13, rfl⟩
abbrev main_call0_v5 : Ref sig .tc := ⟨.hbm, 14, rfl⟩
abbrev main_call0_v6 : Ref sig .tc := ⟨.hbm, 15, rfl⟩
abbrev main_call0_c_2 : Ref sig .tc := ⟨.hbm, 16, rfl⟩
abbrev main_call0_v7 : Ref sig .tc := ⟨.hbm, 17, rfl⟩
abbrev main_call0_v8 : Ref sig .tc := ⟨.hbm, 18, rfl⟩
abbrev main_call0_c_3 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_v0 : Ref sig .tc := ⟨.hbm, 26, rfl⟩
abbrev main_c_0 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_c : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_c_0 : Ref sig .tc := ⟨.hbm, 41, rfl⟩
abbrev main_call1_v12 : Ref sig .tc := ⟨.hbm, 42, rfl⟩
abbrev main_call1_v13 : Ref sig .tc := ⟨.hbm, 43, rfl⟩
abbrev main_v1 : Ref sig .tc := ⟨.hbm, 44, rfl⟩
abbrev main_v2 : Ref sig .tc := ⟨.hbm, 45, rfl⟩
abbrev main_v3 : Ref sig .tc := ⟨.hbm, 46, rfl⟩
abbrev main_v4 : Ref sig .tc := ⟨.hbm, 47, rfl⟩
abbrev main_v5 : Ref sig .tc := ⟨.hbm, 48, rfl⟩
abbrev main_v6 : Ref sig .tc := ⟨.hbm, 49, rfl⟩
abbrev main_v7 : Ref sig .tc := ⟨.hbm, 50, rfl⟩
abbrev main_v8 : Ref sig .tc := ⟨.hbm, 51, rfl⟩
abbrev main_v9 : Ref sig .tc := ⟨.hbm, 52, rfl⟩
abbrev main_v10 : Ref sig .tc := ⟨.hbm, 53, rfl⟩
abbrev main_v11 : Ref sig .tc := ⟨.hbm, 54, rfl⟩
abbrev main_v12 : Ref sig .tc := ⟨.hbm, 55, rfl⟩
abbrev main_v13 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩

abbrev nD : Nat := 1
abbrev τ : Topo := Topo.v7x

variable {F : FTy → Type} [FloatOps F]

class Facts₀ : Prop where
  bcast_S_S8388608 : S_.BroadcastsInDim S8388608 (![] : Fin 0 → Fin S8388608.rank)
  bcast_S8388608_S8388608x1_0 : S8388608.BroadcastsInDim S8388608x1 (![0] : Fin 1 → Fin S8388608x1.rank)
  concatenates_S8388608x1_S8388608x1_S8388608x2_d1 : Shape.Concatenates [S8388608x1, S8388608x1] S8388608x2 1
  shapeCasts_S8388608x2_S16777216 : S8388608x2.ShapeCasts S16777216
  shapeCasts_S16777216_S4096x32x128 : S16777216.ShapeCasts S4096x32x128
  bcast_S4096x32_S4096x32x1_0_1 : S4096x32.BroadcastsInDim S4096x32x1 (![0, 1] : Fin 2 → Fin S4096x32x1.rank)
  bcast_S4096x32x1_S4096x32x128_0_1_2 : S4096x32x1.BroadcastsInDim S4096x32x128 (![0, 1, 2] : Fin 3 → Fin S4096x32x128.rank)
  shapeCasts_S4096x32x128_S4096x4096 : S4096x32x128.ShapeCasts S4096x4096
  bcast_S4096_S1x1x4096_2 : S4096.BroadcastsInDim S1x1x4096 (![2] : Fin 1 → Fin S1x1x4096.rank)
  bcast_S1x1x4096_S8x2048x4096_0_1_2 : S1x1x4096.BroadcastsInDim S8x2048x4096 (![0, 1, 2] : Fin 3 → Fin S8x2048x4096.rank)
  dot_S8x2048x4096_S4096x4096_S8x2048x4096_2_1_01_0_n_n_wf : DotDims.WF S8x2048x4096 S4096x4096 S8x2048x4096 [2] [1] [0, 1] [0] [] []

variable [Facts₀]

def dot_S8x2048x4096_S4096x4096_S8x2048x4096_2_1_01_0_n_n : DotDims S8x2048x4096 S4096x4096 S8x2048x4096 where
  lhsContracting := [2]
  rhsContracting := [1]
  lhsNonContracting := [0, 1]
  rhsNonContracting := [0]
  lhsBatch := []
  rhsBatch := []
  wf := dot_S8x2048x4096_S4096x4096_S8x2048x4096_2_1_01_0_n_n_wf

class Facts : Prop extends Facts₀ where

variable [Facts]
-- ==== Proof.LibDotRows.lean ====
/-
  A matrix product against the rows of the right operand, read at a row and a column. For dimension numbers that
  contract the second axis of BOTH operands and batch nothing (an M x K array times the transpose of an N x K
  array) — stated by the four coordinate facts of the operand indices — the contraction at (r, c) is the finite sum
  over k of left (r, k) * right (c, k). A matrix-unit product into the zero accumulator is that sum at the extended
  reals, whatever formats the operands were rounded to on the way.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Idealize.ShloMosaic.ValueIdx

open Idealize.ShloMosaic

/-- The facts that say a dot's dimension numbers are those of an M x K array times the transpose of an N x K one. -/
structure RowsDot {M K N : ℕ} (d : DotDims (⟨2, ![M, K]⟩ : Shape) (⟨2, ![N, K]⟩ : Shape) (⟨2, ![M, N]⟩ : Shape)) : Prop where
  rank : d.contr.rank = 1
  size : d.contr.size ⟨0, by omega⟩ = K
  l0 : ∀ (j : (⟨2, ![M, N]⟩ : Shape).Idx) (q : d.contr.Idx), (d.lhsIdx j q 0).val = (j 0).val
  l1 : ∀ (j : (⟨2, ![M, N]⟩ : Shape).Idx) (q : d.contr.Idx), (d.lhsIdx j q 1).val = (q ⟨0, by omega⟩).val
  r0 : ∀ (j : (⟨2, ![M, N]⟩ : Shape).Idx) (q : d.contr.Idx), (d.rhsIdx j q 0).val = (j 1).val
  r1 : ∀ (j : (⟨2, ![M, N]⟩ : Shape).Idx) (q : d.contr.Idx), (d.rhsIdx j q 1).val = (q ⟨0, by omega⟩).val

/-- The contraction against the right operand's rows at (r, c), re-indexed by the inner position k. -/
theorem contraction_rows_ix2 {M K N : ℕ} {d : DotDims (⟨2, ![M, K]⟩ : Shape) (⟨2, ![N, K]⟩ : Shape) (⟨2, ![M, N]⟩ : Shape)}
    (hd : RowsDot d) (lhs : (⟨2, ![M, K]⟩ : Shape).Idx → EReal) (rhs : (⟨2, ![N, K]⟩ : Shape).Idx → EReal) (r : Fin M) (c : Fin N) :
    (∑ q : d.contr.Idx, lhs (d.lhsIdx (ix2 r c) q) * rhs (d.rhsIdx (ix2 r c) q)) = ∑ k : Fin K, lhs (ix2 r k) * rhs (ix2 c k) := by
  rw [← Equiv.sum_comp (contrEquiv1 d K hd.rank hd.size).symm]
  refine Finset.sum_congr rfl fun k _ => ?_
  have hk := contrEquiv1_symm_val d K hd.rank hd.size k
  have el : d.lhsIdx (ix2 r c) ((contrEquiv1 d K hd.rank hd.size).symm k) = ix2 r k := funext fun a => Fin.ext (by
    match a with
    | ⟨0, _⟩ => exact hd.l0 _ _
    | ⟨1, _⟩ => exact (hd.l1 _ _).trans hk)
  have er : d.rhsIdx (ix2 r c) ((contrEquiv1 d K hd.rank hd.size).symm k) = ix2 c k := funext fun a => Fin.ext (by
    match a with
    | ⟨0, _⟩ => exact hd.r0 _ _
    | ⟨1, _⟩ => exact (hd.r1 _ _).trans hk)
  rw [el, er]

/-- A matrix-unit product of an M x K array with the rows of an N x K array into zeros, at (r, c): the sum over the
    K inner positions. -/
theorem matmul_zero_rows_ix2 {M K N : ℕ} {φ₁ φ₂ : FTy} {d : DotDims (⟨2, ![M, K]⟩ : Shape) (⟨2, ![N, K]⟩ : Shape) (⟨2, ![M, N]⟩ : Shape)}
    (hd : RowsDot d) (prec : Option ContractPrecision)
    (lhs : FVec Ideal (⟨2, ![M, K]⟩ : Shape) φ₁) (rhs : FVec Ideal (⟨2, ![N, K]⟩ : Shape) φ₂) (r : Fin M) (c : Fin N) :
    FloatOps.matmul d prec lhs rhs (constant (⟨2, ![M, N]⟩ : Shape) .f32 0x00000000#32) (ix2 r c)
      = ∑ k : Fin K, (lhs (ix2 r k) : EReal) * (rhs (ix2 c k) : EReal) := by
  rw [Ideal.matmul_constant_zero_apply]
  exact contraction_rows_ix2 hd lhs rhs r c

/-- A dense layer against the rows of the weights: the product into zeros plus a bias vector recast as one row and
    broadcast down the rows, at (p, q), is the sum over the inner position plus the bias at q. -/
theorem dense_rows_ix2 {M K N : ℕ} {φ₁ φ₂ : FTy} {d : DotDims (⟨2, ![M, K]⟩ : Shape) (⟨2, ![N, K]⟩ : Shape) (⟨2, ![M, N]⟩ : Shape)}
    (hd : RowsDot d) (prec : Option ContractPrecision)
    (x : FVec Ideal (⟨2, ![M, K]⟩ : Shape) φ₁) (w : FVec Ideal (⟨2, ![N, K]⟩ : Shape) φ₂) (b : FVec Ideal (⟨1, ![N]⟩ : Shape) .f32)
    (h1 : (⟨1, ![N]⟩ : Shape).ShapeCasts ⟨2, ![1, N]⟩) (h2 : (⟨2, ![1, N]⟩ : Shape).Broadcasts ⟨2, ![M, N]⟩) (p : Fin M) (q : Fin N) :
    addf (matmul d prec x w (constant (⟨2, ![M, N]⟩ : Shape) .f32 0x00000000#32))
        (broadcastTo (⟨2, ![M, N]⟩ : Shape) (shapeCast (⟨2, ![1, N]⟩ : Shape) b h1) h2) (ix2 p q)
      = (∑ k : Fin K, (x (ix2 p k) : EReal) * (w (ix2 q k) : EReal)) + (b (ix1 q) : EReal) := by
  show FloatOps.matmul d prec x w (constant (⟨2, ![M, N]⟩ : Shape) .f32 0x00000000#32) (ix2 p q)
      + broadcastTo (⟨2, ![M, N]⟩ : Shape) (shapeCast (⟨2, ![1, N]⟩ : Shape) b h1) h2 (ix2 p q) = _
  rw [broadcastTo_1b_ab_apply, shapeCast_a_1a_apply, matmul_zero_rows_ix2 hd]

end Idealize.ShloMosaic.ValueIdx

end
-- ==== Proof.KBody.lean ====
/-
  What one grid point leaves in the output's staging buffer, and that block read at an entry.

  The body runs at the point (i, j, k) of the grid [8, 2, 8] on a [2048, 512] block of the activations, a [2048, 512]
  block of the weights, a [1, 2048] piece of the bias and the [2048, 2048] accumulator block. When k = 0 it first stores
  the bias row spread over the 2048 rows and then adds the product of the two input blocks; otherwise it adds the
  product to what the accumulator held. The product contracts the second axis of both blocks:
      (acc + x w^T)(p, q) = acc(p, q) + sum over r < 512 of x(p, r) * w(q, r),
  and narrowing x to bf16 on the way changes nothing on the extended reals.
-/
import proofs.«121621_j74594991997151_1_alg».proof.Proof.Gen.KernelIdeal.Frame
import proofs.«121621_j74594991997151_1_alg».proof.Proof.LibDotRows
import Idealize.ShloMosaic.Lib.Pipeline.Value
import Idealize.ShloMosaic.Lib.ValueLayout
import Idealize.ShloMosaic.Lib.Tactic

noncomputable section

open scoped BigOperators
open Idealize.ShloMosaic Idealize.ShloMosaic.TcCoe Idealize.SL.Sem Idealize.ShloMosaic.ValueIdx

namespace Cert.KernelIdeal.KBody

open Cert.KernelIdeal Cert.KernelIdeal.Gen

variable {F : FTy → Type} [FloatOps F]

theorem hz : (![0, 0] : Fin 2 → Nat) = fun _ => 0 := funext fun a => by fin_cases a <;> rfl

/-- Away from k = 0 the body leaves, over an accumulator block `acc`, the payload of its one store: acc plus the product. -/
theorem out_B (c : Dev nD) (i : grid0.Coords) (arg3 : Memref sig .tc .vmem S2048x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S2048x2048 .f32) (harg6 : arg6.IsWhole) (hc0 : ¬cond0_0 i)
    (x0 : Vec F S2048x512 .f32) (x1 : Vec F S2048x512 .bf16) (x2 : Vec F S1x2048 .f32) (acc : Vec F S2048x2048 .f32) :
    out0_B_3 c i arg3 harg3 arg4 harg4 arg5 harg5 arg6 harg6 hc0 x0 x1 x2 acc = k0_pay2 x0 x1 acc := by
  unfold out0_B_3
  rw [View.read_writes_eq_canon _ _ _ (cover0_B_3 c i arg3 harg3 arg4 harg4 arg5 harg5 arg6 harg6 hc0 x0 x1 x2 acc)]
  unfold kernelRun0_B
  dsimp only
  rw [View.canon_unit_zero hz]
  simp only [View.readAt_eq_ld, harg3.read_unread, harg4.read_unread, harg6.read_unread,
    View.ld_unit_zero (S := S2048x512) hz, View.ld_unit_zero (S := S2048x2048) hz]

/-- At k = 0 the body stores the spread bias row, reads it back and leaves it plus the product. -/
theorem out_A (c : Dev nD) (i : grid0.Coords) (arg3 : Memref sig .tc .vmem S2048x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S2048x2048 .f32) (harg6 : arg6.IsWhole) (hc0 : cond0_0 i)
    (x0 : Vec F S2048x512 .f32) (x1 : Vec F S2048x512 .bf16) (x2 : Vec F S1x2048 .f32) :
    out0_A_3 c i arg3 harg3 arg4 harg4 arg5 harg5 arg6 harg6 hc0 x0 x1 x2 = k0_pay2 x0 x1 (k0_pay1 x2) := by
  unfold out0_A_3
  rw [View.read_writes_eq_canon _ _ _ (cover0_A_3 c i arg3 harg3 arg4 harg4 arg5 harg5 arg6 harg6 hc0 x0 x1 x2)]
  unfold kernelRun0_A
  dsimp only
  sl_unfold_words
  rw [View.canon_cons_unit_zero (S := S2048x2048) hz, View.readCov_unit_zero (S := S2048x2048) _ hz]
  simp only [View.readAt_eq_ld, harg3.read_unread, harg4.read_unread, harg5.read_unread,
    View.ld_unit_zero (S := S2048x512) hz, View.ld_unit_zero (S := S1x2048) hz]

/-! ## The two payloads at an entry, on the extended reals -/

/-- The body's product contracts the second axis of both blocks. -/
theorem rowsDot : RowsDot (M := 2048) (K := 512) (N := 2048) dot_S2048x512_S2048x512_S2048x2048_1_1_0_0_n_n where
  rank := rfl
  size := rfl
  l0 := fun _ _ => rfl
  l1 := fun _ _ => rfl
  r0 := fun _ _ => rfl
  r1 := fun _ _ => rfl

/-- The spread bias row at (p, q) is the row's entry q. -/
theorem pay1_apply (x2 : Vec Ideal S1x2048 .f32) (p q : Fin 2048) :
    k0_pay1 (F := Ideal) x2 (ix2 p q) = x2 (ix2 (0 : Fin 1) q) := by
  show broadcastTo S2048x2048 (shapeCast S1x2048 (shapeCast S1x2048 x2 shapeCasts_S1x2048_S1x2048 : FVec Ideal S1x2048 .f32)
    shapeCasts_S1x2048_S1x2048 : FVec Ideal S1x2048 .f32) broadcasts_S1x2048_S2048x2048 (ix2 p q) = _
  rw [shapeCast_self, shapeCast_self]
  exact broadcastTo_1b_ab_apply (a := 2048) (b := 2048) x2 _ p q

/-- The accumulating store's payload at (p, q): the accumulator's entry plus the row-by-row product. -/
theorem pay2_apply (x0 : Vec Ideal S2048x512 .f32) (x1 : Vec Ideal S2048x512 .bf16) (acc : Vec Ideal S2048x2048 .f32) (p q : Fin 2048) :
    (k0_pay2 (F := Ideal) x0 x1 acc (ix2 p q) : EReal)
      = (acc (ix2 p q) : EReal) + ∑ r : Fin 512, (x0 (ix2 p r) : EReal) * (x1 (ix2 q r) : EReal) := by
  show addf (shapeCast S2048x2048 acc shapeCasts_S2048x2048_S2048x2048 : FVec Ideal S2048x2048 .f32)
    (matmul dot_S2048x512_S2048x512_S2048x2048_1_1_0_0_n_n none
      (truncf .bf16 (shapeCast S2048x512 x0 shapeCasts_S2048x512_S2048x512 : FVec Ideal S2048x512 .f32) bitsLt_bf16_f32)
      (shapeCast S2048x512 x1 shapeCasts_S2048x512_S2048x512 : FVec Ideal S2048x512 .bf16)
      (constant S2048x2048 .f32 0x00000000#32)) (ix2 p q) = _
  rw [shapeCast_self, shapeCast_self, shapeCast_self]
  show (acc (ix2 p q) : EReal) + (FloatOps.matmul (F := Ideal) dot_S2048x512_S2048x512_S2048x2048_1_1_0_0_n_n none
      (truncf .bf16 (x0 : FVec Ideal S2048x512 .f32) bitsLt_bf16_f32) (x1 : FVec Ideal S2048x512 .bf16)
      (constant (F := Ideal) S2048x2048 .f32 0x00000000#32) (ix2 p q) : EReal) = _
  exact congrArg (fun z : EReal => (acc (ix2 p q) : EReal) + z)
    (matmul_zero_rows_ix2 (M := 2048) (K := 512) (N := 2048) rowsDot none
      (truncf .bf16 (x0 : FVec Ideal S2048x512 .f32) bitsLt_bf16_f32) (x1 : FVec Ideal S2048x512 .bf16) p q)

end Cert.KernelIdeal.KBody

end
-- ==== Proof.KAcc.lean ====
/-
  The accumulator block after each grid point.

  The grid [8, 2, 8] is walked row-major, the reduction axis fastest: point n is (I, J, k) with I = n / 16,
  J = n / 8 mod 2, k = n mod 8. At that point the body sees rows 2048 I .. of the activations and rows 2048 J .. of the
  weights, both at columns 512 k .., and columns 2048 J .. of the bias row; the output block (I, J) stays in its
  staging buffer while k runs. So after point n the buffer holds, at (p, q),
      bias(2048 J + q) + sum over kt <= k of ( sum over r < 512 of x(2048 I + p, 512 kt + r) * w(2048 J + q, 512 kt + r) ),
  the tiles added in the order the grid visits them. This is an induction on n over the two cases of the body.
-/
import proofs.«121621_j74594991997151_1_alg».proof.Proof.KBody

noncomputable section

open scoped BigOperators
open Idealize.ShloMosaic Idealize.ShloMosaic.TcCoe Idealize.SL.Sem Idealize.ShloMosaic.ValueIdx

namespace Cert.KernelIdeal.KAcc

open Cert.KernelIdeal Cert.KernelIdeal.Gen

/-- An array of two axes read at natural-number coordinates (zero outside the array: never read there). -/
def at2 {A B : ℕ} (f : (⟨2, ![A, B]⟩ : Shape).Idx → EReal) (a b : ℕ) : EReal :=
  if h : a < A ∧ b < B then f (ix2 ⟨a, h.1⟩ ⟨b, h.2⟩) else 0

theorem at2_of_lt {A B : ℕ} (f : (⟨2, ![A, B]⟩ : Shape).Idx → EReal) (a b : ℕ) (ha : a < A) (hb : b < B) :
    at2 f a b = f (ix2 ⟨a, ha⟩ ⟨b, hb⟩) := dif_pos ⟨ha, hb⟩

variable (m : (ℓ : Loc nD τ sig) → Buf (Elt Ideal) ℓ)

/-- Where each window's block sits at point t, decided over the 128 points. -/
theorem idx_facts : ∀ t : Fin cfg0.N,
    win0_0.index t (0 : Fin 2) = t.val / 16 ∧ win0_0.index t (1 : Fin 2) = t.val % 8
    ∧ win0_1.index t (0 : Fin 2) = t.val / 8 % 2 ∧ win0_1.index t (1 : Fin 2) = t.val % 8
    ∧ win0_2.index t (0 : Fin 2) = 0 ∧ win0_2.index t (1 : Fin 2) = t.val / 8 % 2
    ∧ win0_3.index t (0 : Fin 2) = t.val / 16 ∧ win0_3.index t (1 : Fin 2) = t.val / 8 % 2 :=
  (by decide +kernel : ∀ t : Fin grid0.N, _)

/-- The activations' block at point t, entry (p, r). -/
theorem iblk0_apply (c : Dev nD) (t : Fin cfg0.N) (p : Fin 2048) (r : Fin 512) :
    (iblk m c 0 t (ix2 p r) : EReal)
      = at2 (A := 16384) (B := 4096) (V m c main_v18) (2048 * (t.val / 16) + p.val) (512 * (t.val % 8) + r.val) := by
  obtain ⟨e0, e1, -⟩ := idx_facts t
  have hN : t.val < 128 := lt_of_lt_of_eq t.isLt N_0
  have hp := p.isLt
  have hr := r.isLt
  rw [at2_of_lt _ _ _ (by omega) (by omega)]
  unfold iblk
  rw [View.read_apply]
  show V m c main_v18 (((cfg0.win 0).blk t).view.emb (ix2 p r)) = _
  refine congrArg (V m c main_v18) (funext fun a => Fin.ext ?_)
  match a with
  | ⟨0, _⟩ => show win0_0.index t (0 : Fin 2) * 2048 + 1 * p.val = 2048 * (t.val / 16) + p.val; rw [e0]; omega
  | ⟨1, _⟩ => show win0_0.index t (1 : Fin 2) * 512 + 1 * r.val = 512 * (t.val % 8) + r.val; rw [e1]; omega

/-- The weights' block at point t, entry (q, r). -/
theorem iblk1_apply (c : Dev nD) (t : Fin cfg0.N) (q : Fin 2048) (r : Fin 512) :
    (iblk m c 1 t (ix2 q r) : EReal)
      = at2 (A := 4096) (B := 4096) (V m c main_v17) (2048 * (t.val / 8 % 2) + q.val) (512 * (t.val % 8) + r.val) := by
  obtain ⟨-, -, e0, e1, -⟩ := idx_facts t
  have hN : t.val < 128 := lt_of_lt_of_eq t.isLt N_0
  have hq := q.isLt
  have hr := r.isLt
  rw [at2_of_lt _ _ _ (by omega) (by omega)]
  unfold iblk
  rw [View.read_apply]
  show V m c main_v17 (((cfg0.win 1).blk t).view.emb (ix2 q r)) = _
  refine congrArg (V m c main_v17) (funext fun a => Fin.ext ?_)
  match a with
  | ⟨0, _⟩ => show win0_1.index t (0 : Fin 2) * 2048 + 1 * q.val = 2048 * (t.val / 8 % 2) + q.val; rw [e0]; omega
  | ⟨1, _⟩ => show win0_1.index t (1 : Fin 2) * 512 + 1 * r.val = 512 * (t.val % 8) + r.val; rw [e1]; omega

/-- The bias row's piece at point t, entry (0, q). -/
theorem iblk2_apply (c : Dev nD) (t : Fin cfg0.N) (q : Fin 2048) :
    (iblk m c 2 t (ix2 (0 : Fin 1) q) : EReal)
      = at2 (A := 1) (B := 4096) (V m c main_v19) 0 (2048 * (t.val / 8 % 2) + q.val) := by
  obtain ⟨-, -, -, -, e0, e1, -⟩ := idx_facts t
  have hN : t.val < 128 := lt_of_lt_of_eq t.isLt N_0
  have hq := q.isLt
  rw [at2_of_lt _ _ _ (by omega) (by omega)]
  unfold iblk
  rw [View.read_apply]
  show V m c main_v19 (((cfg0.win 2).blk t).view.emb (ix2 (0 : Fin 1) q)) = _
  refine congrArg (V m c main_v19) (funext fun a => Fin.ext ?_)
  match a with
  | ⟨0, _⟩ => show win0_2.index t (0 : Fin 2) * 1 + 1 * (0 : Fin 1).val = 0; rw [e0]; rfl
  | ⟨1, _⟩ => show win0_2.index t (1 : Fin 2) * 2048 + 1 * q.val = 2048 * (t.val / 8 % 2) + q.val; rw [e1]; omega

/-- One tile of the reduction: columns 512 kt .. 512 kt + 511 of row a of the activations against the same columns of
    row o of the weights. -/
def tile (c : Dev nD) (a o kt : ℕ) : EReal :=
  ∑ r : Fin 512, at2 (A := 16384) (B := 4096) (V m c main_v18) a (512 * kt + r.val)
    * at2 (A := 4096) (B := 4096) (V m c main_v17) o (512 * kt + r.val)

/-- The accumulator block's entry (p, q) after point n. -/
def accAt (c : Dev nD) (n : ℕ) (p q : Fin 2048) : EReal :=
  at2 (A := 1) (B := 4096) (V m c main_v19) 0 (2048 * (n / 8 % 2) + q.val)
    + ∑ kt ∈ Finset.range (n % 8 + 1), tile m c (2048 * (n / 16) + p.val) (2048 * (n / 8 % 2) + q.val) kt

/-- A point with k = 0 leaves the bias plus the first tile. -/
theorem caseA (c : Dev nD) (t : Fin cfg0.N) (h0 : t.val % 8 = 0) (p q : Fin 2048) :
    (outsAt0 m c t.val t.isLt (ix2 p q) : EReal)
      = at2 (A := 1) (B := 4096) (V m c main_v19) 0 (2048 * (t.val / 8 % 2) + q.val)
        + tile m c (2048 * (t.val / 16) + p.val) (2048 * (t.val / 8 % 2) + q.val) (t.val % 8) := by
  have e := congrFun ((outsAt0_A m c t h0).trans (KBody.out_A c (grid0.coords t) (ms0_0 t) (hs0_0 t) (ms0_1 t) (hs0_1 t)
    (ms0_2 t) (hs0_2 t) (ms0_3 t) (hs0_3 t) ((hcond0_0 t).mpr h0) (iblk m c 0 t) (iblk m c 1 t) (iblk m c 2 t))) (ix2 p q)
  refine e.trans ((KBody.pay2_apply (iblk m c 0 t) (iblk m c 1 t) (k0_pay1 (iblk m c 2 t)) p q).trans ?_)
  exact congrArg₂ (fun a b : EReal => a + b) ((KBody.pay1_apply (iblk m c 2 t) p q).trans (iblk2_apply m c t q))
    (Finset.sum_congr rfl fun r _ => congrArg₂ (fun a b : EReal => a * b) (iblk0_apply m c t p r) (iblk1_apply m c t q r))

/-- A point with k > 0 adds its tile to what the point before left. -/
theorem caseB (c : Dev nD) (t : Fin cfg0.N) (h0 : ¬t.val % 8 = 0) (p q : Fin 2048) :
    (outsAt0 m c t.val t.isLt (ix2 p q) : EReal)
      = (outsAt0 m c (t.val - 1) (Nat.lt_of_le_of_lt (Nat.sub_le _ _) t.isLt) (ix2 p q) : EReal)
        + tile m c (2048 * (t.val / 16) + p.val) (2048 * (t.val / 8 % 2) + q.val) (t.val % 8) := by
  have e := congrFun ((outsAt0_B m c t h0).trans (KBody.out_B c (grid0.coords t) (ms0_0 t) (hs0_0 t) (ms0_1 t) (hs0_1 t)
    (ms0_2 t) (hs0_2 t) (ms0_3 t) (hs0_3 t) (fun h => h0 ((hcond0_0 t).mp h)) (iblk m c 0 t) (iblk m c 1 t) (iblk m c 2 t)
    (outsAt0 m c (t.val - 1) (Nat.lt_of_le_of_lt (Nat.sub_le _ _) t.isLt)))) (ix2 p q)
  refine e.trans ((KBody.pay2_apply (iblk m c 0 t) (iblk m c 1 t)
    (outsAt0 m c (t.val - 1) (Nat.lt_of_le_of_lt (Nat.sub_le _ _) t.isLt)) p q).trans ?_)
  exact congrArg (fun b : EReal => (outsAt0 m c (t.val - 1) (Nat.lt_of_le_of_lt (Nat.sub_le _ _) t.isLt) (ix2 p q) : EReal) + b)
    (Finset.sum_congr rfl fun r _ => congrArg₂ (fun a b : EReal => a * b) (iblk0_apply m c t p r) (iblk1_apply m c t q r))

/-- After point n the accumulator block holds the bias plus the tiles 0 .. n mod 8 of its row and column block. -/
theorem outsAt_apply (c : Dev nD) : ∀ (n : ℕ) (h : n < cfg0.N) (p q : Fin 2048),
    (outsAt0 m c n h (ix2 p q) : EReal) = accAt m c n p q := by
  intro n
  induction n with
  | zero =>
    intro h p q
    refine (caseA m c ⟨0, h⟩ rfl p q).trans ?_
    unfold accAt
    simp
  | succ n ih =>
    intro h p q
    by_cases h0 : (n + 1) % 8 = 0
    · refine (caseA m c ⟨n + 1, h⟩ h0 p q).trans ?_
      unfold accAt
      show _ + tile m c (2048 * ((n + 1) / 16) + p.val) (2048 * ((n + 1) / 8 % 2) + q.val) ((n + 1) % 8) = _
      rw [h0]
      simp
    · refine (caseB m c ⟨n + 1, h⟩ h0 p q).trans ?_
      show (outsAt0 m c n (Nat.lt_of_succ_lt h) (ix2 p q) : EReal)
        + tile m c (2048 * ((n + 1) / 16) + p.val) (2048 * ((n + 1) / 8 % 2) + q.val) ((n + 1) % 8) = _
      rw [ih (Nat.lt_of_succ_lt h) p q]
      unfold accAt
      have e1 : (n + 1) / 16 = n / 16 := by omega
      have e2 : (n + 1) / 8 = n / 8 := by omega
      have e3 : (n + 1) % 8 = n % 8 + 1 := by omega
      rw [e1, e2, e3, Finset.sum_range_succ _ (n % 8 + 1), add_assoc]

end Cert.KernelIdeal.KAcc

end
-- ==== Proof.KFinal.lean ====
/-
  The product array after the last grid point, and the result after the closing reshape.

  Output block (I, J) is written back once, after the point with k = 7, when its staging buffer holds the bias plus all
  eight tiles. The sixteen blocks tile the [16384, 4096] array, so it ends holding, at (a, o),
      bias(o) + sum over kt < 8 of ( sum over r < 512 of x(a, 512 kt + r) * w(o, 512 kt + r) ),
  and the program's result is that array read as [8, 2048, 4096].
-/
import proofs.«121621_j74594991997151_1_alg».proof.Proof.KAcc
import Idealize.ShloMosaic.Lib.StableHlo.Run

noncomputable section

open scoped BigOperators
open Idealize.ShloMosaic Idealize.ShloMosaic.TcCoe Idealize.SL.Sem Idealize.ShloMosaic.ValueIdx
open Idealize.ShloMosaic.Pipeline (Dat)

namespace Cert.KernelIdeal.KFinal

open Cert.KernelIdeal Cert.KernelIdeal.Gen Cert.KernelIdeal.KAcc

variable (m : (ℓ : Loc nD τ sig) → Buf (Elt Ideal) ℓ) (ρ : Dev nD → PrngReg)

/-- The [16384, 4096] product with the bias, tile by tile. -/
def out2d (c : Dev nD) : S16384x4096.Idx → EReal := fun i =>
  at2 (A := 1) (B := 4096) (V m c main_v19) 0 (i 1).val + ∑ kt ∈ Finset.range 8, tile m c (i 0).val (i 1).val kt

/-- What a flushing point writes back is its block of that array. -/
theorem flushed_eq (c : Dev nD) (t : Fin cfg0.N) (hf : (cfg0.win 3).flush t = true) :
    (dats m 0 c).flushed 3 t = ((cfg0.win 3).blk t).view.read (Elt Ideal) (out2d m c) := by
  have h7 : t.val % 8 = 7 := (flush0_3 t).mp hf
  have hN : t.val < 128 := lt_of_lt_of_eq t.isLt N_0
  obtain ⟨-, -, -, -, -, -, e0, e1⟩ := idx_facts t
  show (cfg0.win 3).cut (grid0.coords t) ((dats m 0 c).after 3 t) = _
  rw [after0_3]
  funext y
  obtain ⟨p, q, rfl⟩ : ∃ (p q : Fin 2048), y = ix2 p q := ⟨y 0, y 1, eq_ix2 y⟩
  show (outsAt0 m c t.val t.isLt (ix2 p q) : EReal) = out2d m c (((cfg0.win 3).blk t).view.emb (ix2 p q))
  rw [outsAt_apply]
  unfold accAt out2d
  have hp := p.isLt
  have hq := q.isLt
  have c0 : ((((cfg0.win 3).blk t).view.emb (ix2 p q)) 0).val = 2048 * (t.val / 16) + p.val := by
    show win0_3.index t (0 : Fin 2) * 2048 + 1 * p.val = _
    rw [e0]; omega
  have c1 : ((((cfg0.win 3).blk t).view.emb (ix2 p q)) 1).val = 2048 * (t.val / 8 % 2) + q.val := by
    show win0_3.index t (1 : Fin 2) * 2048 + 1 * q.val = _
    rw [e1]; omega
  simp only [c0, c1, h7]

/-- An index is in point t's block iff each coordinate is in the block's range on its axis. -/
theorem mem_blk (t : Fin cfg0.N) (i : S16384x4096.Idx) :
    i ∈ ((cfg0.win 3).blk t).view.set ↔ ∀ a : Fin 2, win0_3.index t a * S2048x2048.size a ≤ (i a).val
      ∧ (i a).val < win0_3.index t a * S2048x2048.size a + S2048x2048.size a := by
  show i ∈ ((View.whole main_v20).slice (win0_3.rect t)).set ↔ _
  rw [View.set_slice_whole, Rect.mem_set_unit]
  exact Iff.rfl

/-- Every entry lies in the block some flushing point writes back: the one of its row block and column block. -/
theorem cover (i : S16384x4096.Idx) :
    ∃ t : Fin cfg0.N, (cfg0.win 3).flush t = true ∧ i ∈ ((cfg0.win 3).blk t).view.set := by
  have h0 : (i 0).val < 16384 := (i 0).isLt
  have h1 : (i 1).val < 4096 := (i 1).isLt
  have hN : cfg0.N = 128 := N_0
  obtain ⟨tv, htv⟩ : ∃ tv : ℕ, tv = 16 * ((i 0).val / 2048) + 8 * ((i 1).val / 2048) + 7 := ⟨_, rfl⟩
  have hlt : tv < cfg0.N := by rw [hN]; omega
  refine ⟨⟨tv, hlt⟩, (flush0_3 _).mpr (by show tv % 8 = 7; omega), ?_⟩
  rw [mem_blk]
  obtain ⟨-, -, -, -, -, -, e0, e1⟩ := idx_facts ⟨tv, hlt⟩
  intro a
  match a with
  | ⟨0, _⟩ =>
    show win0_3.index ⟨tv, hlt⟩ (0 : Fin 2) * 2048 ≤ (i 0).val ∧ (i 0).val < win0_3.index ⟨tv, hlt⟩ (0 : Fin 2) * 2048 + 2048
    rw [e0]
    show tv / 16 * 2048 ≤ (i 0).val ∧ (i 0).val < tv / 16 * 2048 + 2048
    omega
  | ⟨1, _⟩ =>
    show win0_3.index ⟨tv, hlt⟩ (1 : Fin 2) * 2048 ≤ (i 1).val ∧ (i 1).val < win0_3.index ⟨tv, hlt⟩ (1 : Fin 2) * 2048 + 2048
    rw [e1]
    show tv / 8 % 2 * 2048 ≤ (i 1).val ∧ (i 1).val < tv / 8 % 2 * 2048 + 2048
    omega

/-- So the product array ends holding `out2d`. -/
theorem final_out (c : Dev nD) : (dats m 0 c).arrAt 3 cfg0.N = out2d m c :=
  (dats m 0 c).arrAt_eq_of_cover 3 (out2d m c) (flushed_eq m c) cover

/-- The program's result: the product array read as [8, 2048, 4096]. -/
def kernelOut (c : Dev nD) : S8x2048x4096.Idx → EReal :=
  shapeCast S8x2048x4096 (out2d m c) shapeCasts_S16384x4096_S8x2048x4096

/-- The one operation after the region reads the product array under the result's shape. -/
theorem tail_eq (c : Dev nD) :
    Pipeline.afterTail₀ cfgs (dats m) 0 (V0 m) [hostOps1] c main_v21 = kernelOut m c := by
  unfold Pipeline.afterTail₀
  show StableHlo.after hostOps1 _ (Proc.devRef .tc main_v21) = _
  after_results
  have e : Pipeline.withArrays (cfgs 0).spec c (V0 m c) (fun w => (dats m 0 c).arrAt w (cfgs 0).N) (Proc.devRef .tc main_v20)
      = out2d m c :=
    (Pipeline.withArrays_arr spec0 launch0.win.arr_inj c (V0 m c) (fun w => (dats m 0 c).arrAt w (cfgs 0).N) 3).trans
      (final_out m c)
  funext i
  show shapeCast S8x2048x4096 (Pipeline.withArrays (cfgs 0).spec c (V0 m c) (fun w => (dats m 0 c).arrAt w (cfgs 0).N)
    (Proc.devRef .tc main_v20)) shapeCasts_S16384x4096_S8x2048x4096 i = kernelOut m c i
  unfold kernelOut
  exact congrArg (fun x : S16384x4096.Idx → EReal => shapeCast S8x2048x4096 x shapeCasts_S16384x4096_S8x2048x4096 i) e

/-- The kernel program's run, read: every weakly fair execution ends with the result at `kernelOut` and the five
    arguments as they were. -/
theorem run : θ_run defs (onTc (τ := τ) (main (F := Ideal))) ⟨m, fun _ => 0, ρ⟩ fun r => ∀ c : Dev nD,
      r.2.mem ((c.tc : Thread nD τ).loc main_v21) = kernelOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v21 (Pipeline.mem_restRefs_of main_v21 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KFinal

end
-- ==== Proof.KArgs.lean ====
/-
  Two of the arrays the region reads, as functions of the program's arguments: the activations read as
  [16384, 4096] and the bias read as one row.
-/
import proofs.«121621_j74594991997151_1_alg».proof.Proof.Gen.KernelIdeal.Frame
import Idealize.ShloMosaic.Lib.StableHlo.Run

noncomputable section

open Idealize.ShloMosaic Idealize.ShloMosaic.TcCoe Idealize.SL.Sem Idealize.ShloMosaic.StableHlo

namespace Cert.KernelIdeal.KArgs

open Cert.KernelIdeal Cert.KernelIdeal.Gen

variable {F : FTy → Type} [FloatOps F]
variable (m : (ℓ : Loc nD τ sig) → Buf (Elt F) ℓ)

/-- The activations as the region finds them: the argument read as [16384, 4096]. -/
theorem V_x (c : Dev nD) :
    V m c main_v18 = shapeCast S16384x4096 (m ((c : Thread nD τ).loc main_arg0)) shapeCasts_S8x2048x4096_S16384x4096 := by
  dsimp only [V, V0]
  simp only [hostOps0, hostOps0_1, hostOps0_2, hostOps0_3, hostOps0_4, List.flatten_cons, List.flatten_nil, List.append_nil,
    List.cons_append, List.nil_append]
  after_results_simp
  rfl

/-- The bias as the region finds it: the argument read as one row. -/
theorem V_b (c : Dev nD) :
    V m c main_v19 = shapeCast S1x4096 (m ((c : Thread nD τ).loc main_arg4)) shapeCasts_S4096_S1x4096 := by
  dsimp only [V, V0]
  simp only [hostOps0, hostOps0_1, hostOps0_2, hostOps0_3, hostOps0_4, List.flatten_cons, List.flatten_nil, List.append_nil,
    List.cons_append, List.nil_append]
  after_results_simp
  rfl

end Cert.KernelIdeal.KArgs

end
-- ==== Proof.Spec.lean ====
/-
  Four-bit block-wise dequantisation, as pure functions of the argument arrays.

  A packed word w holds two nibbles: the low one is w mod 16 and the high one w div 16 (floor division), each
  computed the way jax lowers the integer operators: the truncating remainder / quotient followed by the sign
  correction. The 2 * 8388608 nibbles, low before high, read row-major as a [4096, 32, 128] array q, give the weight
      w[o, 128 g + l] = scale[o, g] * (q[o, g, l] - zero_point[o, g]).
  Two spellings of the same array are stated here: one converts the nibbles to floats before they are interleaved
  (`nibblesEarly`), the other after (`nibblesLate`); one narrows the product to bf16 (`weightsNarrow`), the other
  keeps it in f32 (`weightsWide`). At the extended reals the narrowing is the identity and the conversion commutes
  with every re-indexing, so the two are one array; that is proved where it is used, not here.
-/
import Idealize.ShloMosaic.PureOps
import Idealize.ShloMosaic.PureOps.Ideal
import Idealize.ShloMosaic.Lib.ValueIdx

noncomputable section

namespace Cert.QLin

open Idealize.ShloMosaic

abbrev S_ : Shape := ⟨0, ![]⟩
/-- the packed words -/
abbrev SP : Shape := ⟨1, ![8388608]⟩
abbrev SP1 : Shape := ⟨2, ![8388608, 1]⟩
/-- (word, which nibble) -/
abbrev SP2 : Shape := ⟨2, ![8388608, 2]⟩
/-- the nibbles in a row -/
abbrev SQ : Shape := ⟨1, ![16777216]⟩
/-- (output channel, group, position in the group) -/
abbrev SG : Shape := ⟨3, ![4096, 32, 128]⟩
abbrev SG1 : Shape := ⟨3, ![4096, 32, 1]⟩
/-- (output channel, group) -/
abbrev SZ : Shape := ⟨2, ![4096, 32]⟩
/-- (output channel, input channel) -/
abbrev SW : Shape := ⟨2, ![4096, 4096]⟩

theorem bc_S_SP : S_.BroadcastsInDim SP (![] : Fin 0 → Fin SP.rank) := by decide
theorem bc_SP_SP1 : SP.BroadcastsInDim SP1 (![0] : Fin 1 → Fin SP1.rank) := by decide
theorem cat_SP2 : Shape.Concatenates [SP1, SP1] SP2 1 := by decide
theorem cast_SP2_SQ : SP2.ShapeCasts SQ := by decide
theorem cast_SQ_SG : SQ.ShapeCasts SG := by decide
theorem bc_SZ_SG1 : SZ.BroadcastsInDim SG1 (![0, 1] : Fin 2 → Fin SG1.rank) := by decide
theorem bc_SG1_SG : SG1.BroadcastsInDim SG (![0, 1, 2] : Fin 3 → Fin SG.rank) := by decide
theorem cast_SG_SW : SG.ShapeCasts SW := by decide
theorem bits_bf16_f32 : FTy.bits .bf16 < FTy.bits .f32 := by decide

/-- The divisor as jax's remainder uses it: 16, replaced by 1 were it 0. -/
def divisor : IVec S_ 32 :=
  select (cmpi .eq (id (constantI S_ 32 16#32)) (constantI S_ 32 0#32)) (constantI S_ 32 1#32) (id (constantI S_ 32 16#32))

/-- w mod 16 of every packed word: the truncating remainder r, moved by the divisor when r is nonzero and its
    sign differs from the divisor's. -/
def lowNibble (a : IVec SP 32) : IVec SP 32 :=
  select
    (andi
      (cmpi .ne
        (cmpi .slt (Host.remsi a (broadcastInDim SP ![] bc_S_SP divisor)) (broadcastInDim SP ![] bc_S_SP (constantI S_ 32 0#32)))
        (broadcastInDim SP ![] bc_S_SP (cmpi .slt divisor (constantI S_ 32 0#32))))
      (cmpi .ne (Host.remsi a (broadcastInDim SP ![] bc_S_SP divisor)) (broadcastInDim SP ![] bc_S_SP (constantI S_ 32 0#32))))
    (addi (Host.remsi a (broadcastInDim SP ![] bc_S_SP divisor)) (broadcastInDim SP ![] bc_S_SP divisor))
    (Host.remsi a (broadcastInDim SP ![] bc_S_SP divisor))

/-- floor (w / 16) of every packed word: the truncating quotient, less one when the signs of w and 16 differ and
    the remainder is nonzero. -/
def highNibble (a : IVec SP 32) : IVec SP 32 :=
  select
    (andi
      (cmpi .ne (signi a) (broadcastInDim SP ![] bc_S_SP (signi (id (constantI S_ 32 16#32)))))
      (cmpi .ne (Host.remsi a (broadcastInDim SP ![] bc_S_SP (id (constantI S_ 32 16#32))))
        (broadcastInDim SP ![] bc_S_SP (constantI S_ 32 0#32))))
    (subi (Host.divsi a (broadcastInDim SP ![] bc_S_SP (id (constantI S_ 32 16#32))))
      (broadcastInDim SP ![] bc_S_SP (constantI S_ 32 1#32)))
    (Host.divsi a (broadcastInDim SP ![] bc_S_SP (id (constantI S_ 32 16#32))))

/-- Two vectors side by side as the two columns of an [n, 2] array. -/
def stack {α : Type} (lo hi : SP.Idx → α) : SP2.Idx → α :=
  concatenate SP2 1 [⟨SP1, broadcastInDim SP1 ![0] bc_SP_SP1 lo⟩, ⟨SP1, broadcastInDim SP1 ![0] bc_SP_SP1 hi⟩] cat_SP2

variable {F : FTy → Type} [FloatOps F]

/-- The nibbles as floats, low before high, in groups: converted before they are interleaved. -/
def nibblesEarly (a : IVec SP 32) : FVec F SG .f32 :=
  shapeCast SG (shapeCast SQ (stack (sitofp .f32 (lowNibble a)) (sitofp .f32 (highNibble a))) cast_SP2_SQ) cast_SQ_SG

/-- The same, converted after they are interleaved and laid in a row. -/
def nibblesLate (a : IVec SP 32) : FVec F SG .f32 :=
  shapeCast SG (sitofp .f32 (shapeCast SQ (stack (lowNibble a) (highNibble a)) cast_SP2_SQ)) cast_SQ_SG

/-- scale * (q - zero point), the scale and the zero point of a group spread over its 128 positions. -/
def dequant (q : FVec F SG .f32) (sc : FVec F SZ .f32) (zp : IVec SZ 32) : FVec F SG .f32 :=
  mulf (broadcastInDim SG ![0, 1, 2] bc_SG1_SG (broadcastInDim SG1 ![0, 1] bc_SZ_SG1 sc))
    (subf q (broadcastInDim SG ![0, 1, 2] bc_SG1_SG (sitofp .f32 (broadcastInDim SG1 ![0, 1] bc_SZ_SG1 zp))))

/-- The weights [4096, 4096], narrowed to bf16 (the spelling that feeds the matrix unit). -/
def weightsNarrow (a : IVec SP 32) (sc : FVec F SZ .f32) (zp : IVec SZ 32) : FVec F SW .bf16 :=
  truncf .bf16 (shapeCast SW (dequant (nibblesEarly a) sc zp) cast_SG_SW) bits_bf16_f32

/-- The weights [4096, 4096] in f32. -/
def weightsWide (a : IVec SP 32) (sc : FVec F SZ .f32) (zp : IVec SZ 32) : FVec F SW .f32 :=
  shapeCast SW (dequant (nibblesLate a) sc zp) cast_SG_SW

end Cert.QLin

end
-- ==== Proof.KWeights.lean ====
/-
  The weights the region reads, as a function of the program's arguments.

  The host lines before the region come in five stretches: the constant 16; the remainder's lines; the conversion of
  the low nibbles and the second constant 16; the floor division's lines; the interleaving, regrouping and
  dequantisation. Each stretch is read on its own, from any contents of the buffers it starts from, and the five
  readings are chained: the weights array is the dequantised array narrowed to bf16.
-/
import proofs.«121621_j74594991997151_1_alg».proof.Proof.Gen.KernelIdeal.Frame
import proofs.«121621_j74594991997151_1_alg».proof.Proof.Spec
import Idealize.ShloMosaic.Lib.StableHlo.Run

noncomputable section

open Idealize.ShloMosaic Idealize.ShloMosaic.TcCoe Idealize.SL.Sem Idealize.ShloMosaic.StableHlo

namespace Cert.KernelIdeal.KWeights

open Cert.KernelIdeal Cert.KernelIdeal.Gen

variable {F : FTy → Type} [FloatOps F]

/-- The contents after two stretches in a row are those after the second, from those after the first. -/
theorem after_append (l₁ l₂ : List (HloOp τ sig (Elt F))) (W : Valuation τ sig (Elt F)) :
    after (l₁ ++ l₂) W = after l₂ (after l₁ W) := by
  induction l₁ generalizing W with
  | nil => rfl
  | cons op l ih => exact ih _

variable (W : Valuation τ sig (Elt F))

/-! ## The constant -/

theorem a0_c : after hostOps0 W (Proc.devRef .tc main_c) = constantI S_ 32 16#32 := by after_results
theorem a0_arg1 : after hostOps0 W (Proc.devRef .tc main_arg1) = W (Proc.devRef .tc main_arg1) := by after_results
theorem a0_arg2 : after hostOps0 W (Proc.devRef .tc main_arg2) = W (Proc.devRef .tc main_arg2) := by after_results
theorem a0_arg3 : after hostOps0 W (Proc.devRef .tc main_arg3) = W (Proc.devRef .tc main_arg3) := by after_results

/-! ## The remainder -/

set_option maxHeartbeats 4000000 in
theorem a1_v0 (hc : W (Proc.devRef .tc main_c) = constantI S_ 32 16#32) :
    after hostOps0_1 W (Proc.devRef .tc main_v0) = Cert.QLin.lowNibble (W (Proc.devRef .tc main_arg1)) := by
  after_results
  rw [hc]
  rfl
theorem a1_arg1 : after hostOps0_1 W (Proc.devRef .tc main_arg1) = W (Proc.devRef .tc main_arg1) := by after_results
theorem a1_arg2 : after hostOps0_1 W (Proc.devRef .tc main_arg2) = W (Proc.devRef .tc main_arg2) := by after_results
theorem a1_arg3 : after hostOps0_1 W (Proc.devRef .tc main_arg3) = W (Proc.devRef .tc main_arg3) := by after_results

/-! ## The low nibbles converted, and the second constant -/

theorem a2_v1 : after hostOps0_2 W (Proc.devRef .tc main_v1) = sitofp .f32 (W (Proc.devRef .tc main_v0)) := by after_results
theorem a2_c : after hostOps0_2 W (Proc.devRef .tc main_c_0) = constantI S_ 32 16#32 := by after_results
theorem a2_arg1 : after hostOps0_2 W (Proc.devRef .tc main_arg1) = W (Proc.devRef .tc main_arg1) := by after_results
theorem a2_arg2 : after hostOps0_2 W (Proc.devRef .tc main_arg2) = W (Proc.devRef .tc main_arg2) := by after_results
theorem a2_arg3 : after hostOps0_2 W (Proc.devRef .tc main_arg3) = W (Proc.devRef .tc main_arg3) := by after_results

/-! ## The floor division -/

set_option maxHeartbeats 4000000 in
theorem a3_v2 (hc : W (Proc.devRef .tc main_c_0) = constantI S_ 32 16#32) :
    after hostOps0_3 W (Proc.devRef .tc main_v2) = Cert.QLin.highNibble (W (Proc.devRef .tc main_arg1)) := by
  after_results
  rw [hc]
  rfl
theorem a3_v1 : after hostOps0_3 W (Proc.devRef .tc main_v1) = W (Proc.devRef .tc main_v1) := by after_results
theorem a3_arg2 : after hostOps0_3 W (Proc.devRef .tc main_arg2) = W (Proc.devRef .tc main_arg2) := by after_results
theorem a3_arg3 : after hostOps0_3 W (Proc.devRef .tc main_arg3) = W (Proc.devRef .tc main_arg3) := by after_results

/-! ## Interleaving, regrouping, dequantisation, narrowing -/

set_option maxHeartbeats 4000000 in
theorem a4_v17 :
    after hostOps0_4 W (Proc.devRef .tc main_v17)
      = truncf .bf16 (shapeCast Cert.QLin.SW
          (Cert.QLin.dequant
            (shapeCast Cert.QLin.SG (shapeCast Cert.QLin.SQ
              (Cert.QLin.stack (W (Proc.devRef .tc main_v1) : Cert.QLin.SP.Idx → F .f32)
                (sitofp .f32 (W (Proc.devRef .tc main_v2)) : Cert.QLin.SP.Idx → F .f32))
              Cert.QLin.cast_SP2_SQ) Cert.QLin.cast_SQ_SG)
            (W (Proc.devRef .tc main_arg2)) (W (Proc.devRef .tc main_arg3)))
          Cert.QLin.cast_SG_SW) Cert.QLin.bits_bf16_f32 := by
  after_results
  rfl

/-! ## The chain -/

variable (m : (ℓ : Loc nD τ sig) → Buf (Elt F) ℓ)

/-- The weights as the region finds them: the dequantised array narrowed to bf16. -/
theorem V_w (c : Dev nD) :
    V m c main_v17 = Cert.QLin.weightsNarrow (m ((c : Thread nD τ).loc main_arg1)) (m ((c : Thread nD τ).loc main_arg2))
      (m ((c : Thread nD τ).loc main_arg3)) := by
  dsimp only [V, V0]
  simp only [List.flatten_cons, List.flatten_nil, List.append_nil]
  rw [after_append, after_append, after_append, after_append, a4_v17,
    a3_v2 _ (a2_c _), a3_v1, a3_arg2, a3_arg3,
    a2_v1, a2_arg1, a2_arg2, a2_arg3,
    a1_v0 _ (a0_c _), a1_arg1, a1_arg2, a1_arg3,
    a0_arg1, a0_arg2, a0_arg3]
  rfl

end Cert.KernelIdeal.KWeights

end
-- ==== Proof.LibConcatCols.lean ====
/-
  A concatenation of matrices along their COLUMNS, read at an index. The result's entry (r, c) comes from the piece whose
  span of columns holds c -- the piece k with (the widths of the pieces before it) <= c < (those widths) + (its width) --
  at row r and column c less those widths.
-/
import Idealize.ShloMosaic.Lib.Pipeline.Value
import Idealize.ShloMosaic.Lib.ValueIdx

noncomputable section

namespace Idealize.ShloMosaic.ConcatCols

open Idealize.ShloMosaic Idealize.ShloMosaic.ValueIdx

variable {α : Type}

/-- A concatenation of matrices along the columns, read at (r, c) with c in piece k: that piece at (r, j), where
    pre + j = c and pre is the total width of the pieces before piece k. -/
theorem concat_cols_piece {M N : ℕ} (xs : List ((s : Shape) × (s.Idx → α)))
    (h : Shape.Concatenates (xs.map (·.1)) (⟨2, ![M, N]⟩ : Shape) 1)
    (k : ℕ) (hk : k < xs.length) {n₁ : ℕ} (x₁ : (⟨2, ![M, n₁]⟩ : Shape).Idx → α)
    (hxk : xs[k] = ⟨(⟨2, ![M, n₁]⟩ : Shape), x₁⟩) (pre : ℕ)
    (hpre : (((xs.take k).map (·.1)).map fun s : Shape =>
      if h : s.rank = (⟨2, ![M, N]⟩ : Shape).rank then s.size ((1 : Fin (⟨2, ![M, N]⟩ : Shape).rank).cast h.symm) else 0).sum = pre)
    (r : Fin M) (j : Fin n₁) (c : Fin N) (hc : pre + j.val = c.val) :
    concatenate (⟨2, ![M, N]⟩ : Shape) 1 xs h (ix2 r c) = x₁ (ix2 r j) :=
  concatenate_apply_piece 1 xs h (ix2 r c) k hk _ x₁ hxk rfl pre hpre (ix2 r j)
    (fun d hd => by
      match d with
      | ⟨0, _⟩ => rfl
      | ⟨1, _⟩ => exact absurd rfl hd)
    hc

end Idealize.ShloMosaic.ConcatCols

end
-- ==== Proof.LibBroadcastInDim.lean ====
/-
  The host's broadcast_in_dim in the five small forms a row-wise normalisation uses, each read at an index given by
  coordinates: a scalar to any shape; a vector of length a to an a x 1 column; an a x 1 column to a x b; a vector of
  length b to a 1 x b row; a 1 x b row to a x b. In each the result's entry is the operand's entry at the coordinates
  the broadcast keeps.
-/
import Idealize.ShloMosaic.Lib.Pipeline.Value
import Idealize.ShloMosaic.Lib.ValueIdx

namespace Idealize.ShloMosaic.ValueIdx

open Idealize.ShloMosaic

variable {α : Type}

/-- A scalar broadcast to any shape reads the scalar everywhere. -/
theorem broadcastInDim_scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 fun a => a.elim0

/-- A vector of length a placed as an a x 1 column reads, at (r, u), the vector at r. -/
theorem broadcastInDim_vec_col_apply {a : ℕ} (h : (⟨1, ![a]⟩ : Shape).BroadcastsInDim (⟨2, ![a, 1]⟩ : Shape) ![0])
    (x : (⟨1, ![a]⟩ : Shape).Idx → α) (r : Fin a) (u : Fin 1) :
    broadcastInDim (⟨2, ![a, 1]⟩ : Shape) ![0] h x (ix2 r u) = x (ix1 r) := by
  refine broadcastInDim_apply ![0] h x (ix2 r u) (ix1 r) fun ax => ?_
  match ax with
  | ⟨0, _⟩ =>
    show r.val = if a = 1 then 0 else r.val
    split
    · have := r.isLt; omega
    · rfl

/-- An a x 1 column broadcast to a x b reads, at (r, c), the column at (r, 0). -/
theorem broadcastInDim_col_mat_apply {a b : ℕ} (h : (⟨2, ![a, 1]⟩ : Shape).BroadcastsInDim (⟨2, ![a, b]⟩ : Shape) ![0, 1])
    (x : (⟨2, ![a, 1]⟩ : Shape).Idx → α) (r : Fin a) (c : Fin b) :
    broadcastInDim (⟨2, ![a, b]⟩ : Shape) ![0, 1] h x (ix2 r c) = x (ix2 r (0 : Fin 1)) := by
  refine broadcastInDim_apply ![0, 1] h x (ix2 r c) (ix2 r (0 : Fin 1)) fun ax => ?_
  match ax with
  | ⟨0, _⟩ =>
    show r.val = if a = 1 then 0 else r.val
    split
    · have := r.isLt; omega
    · rfl
  | ⟨1, _⟩ => rfl

/-- A vector of length b placed as a 1 x b row reads, at (u, c), the vector at c. -/
theorem broadcastInDim_vec_row_apply {b : ℕ} (h : (⟨1, ![b]⟩ : Shape).BroadcastsInDim (⟨2, ![1, b]⟩ : Shape) ![1])
    (x : (⟨1, ![b]⟩ : Shape).Idx → α) (u : Fin 1) (c : Fin b) :
    broadcastInDim (⟨2, ![1, b]⟩ : Shape) ![1] h x (ix2 u c) = x (ix1 c) := by
  refine broadcastInDim_apply ![1] h x (ix2 u c) (ix1 c) fun ax => ?_
  match ax with
  | ⟨0, _⟩ =>
    show c.val = if b = 1 then 0 else c.val
    split
    · have := c.isLt; omega
    · rfl

/-- A 1 x b row broadcast to a x b reads, at (r, c), the row at (0, c). -/
theorem broadcastInDim_row_mat_apply {a b : ℕ} (h : (⟨2, ![1, b]⟩ : Shape).BroadcastsInDim (⟨2, ![a, b]⟩ : Shape) ![0, 1])
    (x : (⟨2, ![1, b]⟩ : Shape).Idx → α) (r : Fin a) (c : Fin b) :
    broadcastInDim (⟨2, ![a, b]⟩ : Shape) ![0, 1] h x (ix2 r c) = x (ix2 (0 : Fin 1) c) := by
  refine broadcastInDim_apply ![0, 1] h x (ix2 r c) (ix2 (0 : Fin 1) c) fun ax => ?_
  match ax with
  | ⟨0, _⟩ => rfl
  | ⟨1, _⟩ =>
    show c.val = if b = 1 then 0 else c.val
    split
    · have := c.isLt; omega
    · rfl

end Idealize.ShloMosaic.ValueIdx
-- ==== Proof.Weights.lean ====
/-
  The two spellings of the dequantised weights are one array.

  Interleaving two vectors as the columns of an [n, 2] array and then applying a function entry by entry is
  interleaving the two images: entry (r, 0) is the first vector at r and entry (r, 1) the second, whichever is done
  first. Reading an array under another shape only re-indexes it, so an entrywise conversion passes through that too.
  Hence the nibbles converted to floats before they are interleaved and laid out in groups are the nibbles converted
  after, and, narrowing to bf16 being the identity on the extended reals, the narrowed weights are the wide ones.
-/
import proofs.«121621_j74594991997151_1_alg».proof.Proof.Spec
import proofs.«121621_j74594991997151_1_alg».proof.Proof.LibConcatCols
import proofs.«121621_j74594991997151_1_alg».proof.Proof.LibBroadcastInDim
import Idealize.ShloMosaic.PureOps.Ideal.Laws

noncomputable section

namespace Cert.QLin

open Idealize.ShloMosaic Idealize.ShloMosaic.ValueIdx

/-- Column 0 of the interleaved array is the first vector, column 1 the second. -/
theorem stack_apply {α : Type} (lo hi : SP.Idx → α) (r : Fin 8388608) (c : Fin 2) :
    stack lo hi (ix2 r c) = if c.val = 0 then lo (ix1 r) else hi (ix1 r) := by
  unfold stack
  by_cases hc : c.val = 0
  · rw [if_pos hc]
    exact (ConcatCols.concat_cols_piece
      [⟨SP1, broadcastInDim SP1 ![0] bc_SP_SP1 lo⟩, ⟨SP1, broadcastInDim SP1 ![0] bc_SP_SP1 hi⟩] cat_SP2 0 (Nat.zero_lt_succ _)
      (broadcastInDim SP1 ![0] bc_SP_SP1 lo) rfl 0 rfl r (0 : Fin 1) c (by simp [hc])).trans
      (broadcastInDim_vec_col_apply bc_SP_SP1 lo r (0 : Fin 1))
  · rw [if_neg hc]
    have hc1 : c.val = 1 := by have := c.isLt; omega
    exact (ConcatCols.concat_cols_piece
      [⟨SP1, broadcastInDim SP1 ![0] bc_SP_SP1 lo⟩, ⟨SP1, broadcastInDim SP1 ![0] bc_SP_SP1 hi⟩] cat_SP2 1 (Nat.succ_lt_succ (Nat.zero_lt_succ _))
      (broadcastInDim SP1 ![0] bc_SP_SP1 hi) rfl 1 rfl r (0 : Fin 1) c (by simp [hc1])).trans
      (broadcastInDim_vec_col_apply bc_SP_SP1 hi r (0 : Fin 1))

/-- A function applied entry by entry to the interleaved array is the interleaving of the two images. -/
theorem stack_map {α β : Type} (f : α → β) (lo hi : SP.Idx → α) :
    (fun j => f (stack lo hi j)) = stack (fun i => f (lo i)) (fun i => f (hi i)) := by
  funext j
  obtain ⟨r, c, rfl⟩ : ∃ (r : Fin 8388608) (c : Fin 2), j = ix2 r c := ⟨j 0, j 1, eq_ix2 j⟩
  rw [stack_apply, stack_apply]
  split <;> rfl

variable {F : FTy → Type} [FloatOps F]

/-- Converting the nibbles before or after they are interleaved and regrouped gives the same floats. -/
theorem nibbles_eq (a : IVec SP 32) : nibblesEarly (F := F) a = nibblesLate a := by
  have h := stack_map (fun w : BitVec 32 => (FloatOps.sitofp .f32 w : F .f32)) (lowNibble a) (highNibble a)
  show shapeCast SG (shapeCast SQ (stack (fun i => (FloatOps.sitofp .f32 (lowNibble a i) : F .f32))
      (fun i => (FloatOps.sitofp .f32 (highNibble a i) : F .f32))) cast_SP2_SQ) cast_SQ_SG
    = shapeCast SG (shapeCast SQ (fun j => (FloatOps.sitofp .f32 (stack (lowNibble a) (highNibble a) j) : F .f32)) cast_SP2_SQ) cast_SQ_SG
  rw [h]

/-- On the extended reals the weights narrowed to bf16 are the wide weights, entry by entry. -/
theorem weights_eq (a : IVec SP 32) (sc : FVec Ideal SZ .f32) (zp : IVec SZ 32) (i : SW.Idx) :
    (weightsNarrow (F := Ideal) a sc zp i : EReal) = (weightsWide (F := Ideal) a sc zp i : EReal) := by
  unfold weightsNarrow weightsWide
  rw [nibbles_eq]
  rfl

end Cert.QLin

end
-- ==== Proof.RefRun.lean ====
/-
  The run of the reference program: a four-bit quantised linear layer with no kernel.

  The reference's entry function is a straight line of tensor operations once its two outlined integer
  functions are put back at their call sites: the remainder by sixteen (whose sign correction selects through a
  third function) gives the low nibble of every packed word, the floor division by sixteen (selecting through a
  fourth) the high nibble. `ops` is that line, fifty-eight operations in the printed order, each callee's
  operations over the buffers its call names. Run from any memory, every buffer ends at the fold of the
  operations' results over the launch contents; read back at the result buffer, the fold is

      x · Wᵀ + bias,   W = the dequantised weights (`Cert.QLin.weightsWide`) of the packed words, scales and zero points,

  as one composed term of the five arguments, which are left unchanged.
-/
import proofs.«121621_j74594991997151_1_alg».proof.Proof.Gen.ReferenceIdeal
import proofs.«121621_j74594991997151_1_alg».proof.Proof.Spec
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The entry function's fifty-eight operations in order, the calls unfolded: the constant 16; the remainder's
    twenty-one (the divisor replaced by 1 were it 0, through the first select; the truncating remainder; its sign
    test against the divisor's; the corrected remainder selected); the constant 16 again; the floor division's
    seventeen (the truncating quotient; the two signs compared; the remainder tested against zero; the quotient
    less one selected); then the entry function's own eighteen: the two nibble vectors as the columns of an
    [n, 2] array, laid in a row, converted to floats, grouped; the zero point subtracted and the scale
    multiplied, both spread over a group's 128 positions; the weights as a square matrix; the contraction with
    the activations and the bias added. -/
abbrev ops : List (HloOp τ sig (Elt F)) :=
  [ nullary main_c (constantI S_ 32 16#32),
    TRef.unary (.of main_c : TRef sig ⟨S_, .i32⟩) main_call0.v0 id,
    TRef.nullary main_call0.c (constantI S_ 32 0#32),
    TRef.binary main_call0.v0 main_call0.c main_call0.v1 (cmpi .eq),
    TRef.nullary main_call0.c_0 (constantI S_ 32 1#32),
    TRef.ternary main_call0.v1 main_call0.c_0 main_call0.v0 main_call0_call0.v0 select,
    TRef.unary main_call0_call0.v0 main_call0.v3 (broadcastInDim S8388608 ![] bcast_S_S8388608),
    TRef.binary (.of main_arg1 : TRef sig ⟨S8388608, .i32⟩) main_call0.v3 main_call0.v4 Host.remsi,
    TRef.nullary main_call0.c_1 (constantI S_ 32 0#32),
    TRef.unary main_call0.c_1 main_call0.v5 (broadcastInDim S8388608 ![] bcast_S_S8388608),
    TRef.binary main_call0.v4 main_call0.v5 main_call0.v6 (cmpi .ne),
    TRef.nullary main_call0.c_2 (constantI S_ 32 0#32),
    TRef.unary main_call0.c_2 main_call0.v7 (broadcastInDim S8388608 ![] bcast_S_S8388608),
    TRef.binary main_call0.v4 main_call0.v7 main_call0.v8 (cmpi .slt),
    TRef.nullary main_call0.c_3 (constantI S_ 32 0#32),
    TRef.binary main_call0_call0.v0 main_call0.c_3 main_call0.v9 (cmpi .slt),
    TRef.unary main_call0.v9 main_call0.v10 (broadcastInDim S8388608 ![] bcast_S_S8388608),
    TRef.binary main_call0.v8 main_call0.v10 main_call0.v11 (cmpi .ne),
    TRef.binary main_call0.v11 main_call0.v6 main_call0.v12 andi,
    TRef.unary main_call0_call0.v0 main_call0.v13 (broadcastInDim S8388608 ![] bcast_S_S8388608),
    TRef.binary main_call0.v4 main_call0.v13 main_call0.v14 addi,
    TRef.ternary main_call0.v12 main_call0.v14 main_call0.v4 main_call0.v15 select,
    nullary main_c_0 (constantI S_ 32 16#32),
    TRef.unary (.of main_c_0 : TRef sig ⟨S_, .i32⟩) main_call1.v0 id,
    TRef.unary main_call1.v0 main_call1.v1 (broadcastInDim S8388608 ![] bcast_S_S8388608),
    TRef.binary (.of main_arg1 : TRef sig ⟨S8388608, .i32⟩) main_call1.v1 main_call1.v2 Host.divsi,
    TRef.unary (.of main_arg1 : TRef sig ⟨S8388608, .i32⟩) main_call1.v3 signi,
    TRef.unary main_call1.v0 main_call1.v4 signi,
    TRef.unary main_call1.v4 main_call1.v5 (broadcastInDim S8388608 ![] bcast_S_S8388608),
    TRef.binary main_call1.v3 main_call1.v5 main_call1.v6 (cmpi .ne),
    TRef.unary main_call1.v0 main_call1.v7 (broadcastInDim S8388608 ![] bcast_S_S8388608),
    TRef.binary (.of main_arg1 : TRef sig ⟨S8388608, .i32⟩) main_call1.v7 main_call1.v8 Host.remsi,
    TRef.nullary main_call1.c (constantI S_ 32 0#32),
    TRef.unary main_call1.c main_call1.v9 (broadcastInDim S8388608 ![] bcast_S_S8388608),
    TRef.binary main_call1.v8 main_call1.v9 main_call1.v10 (cmpi .ne),
    TRef.binary main_call1.v6 main_call1.v10 main_call1.v11 andi,
    TRef.nullary main_call1.c_0 (constantI S_ 32 1#32),
    TRef.unary main_call1.c_0 main_call1.v12 (broadcastInDim S8388608 ![] bcast_S_S8388608),
    TRef.binary main_call1.v2 main_call1.v12 main_call1.v13 subi,
    TRef.ternary main_call1.v11 main_call1.v13 main_call1.v2 main_call1_call0.v0 select,
    unary main_v0 main_v2 (broadcastInDim S8388608x1 ![0] bcast_S8388608_S8388608x1_0 : (⟨S8388608, .i32⟩ : BufTy).Contents (Elt F) → (⟨S8388608x1, .i32⟩ : BufTy).Contents (Elt F)),
    unary main_v1 main_v3 (broadcastInDim S8388608x1 ![0] bcast_S8388608_S8388608x1_0 : (⟨S8388608, .i32⟩ : BufTy).Contents (Elt F) → (⟨S8388608x1, .i32⟩ : BufTy).Contents (Elt F)),
    binary main_v2 main_v3 main_v4 ((fun a b => concatenate S8388608x2 1 [⟨S8388608x1, a⟩, ⟨S8388608x1, b⟩] concatenates_S8388608x1_S8388608x1_S8388608x2_d1) : (⟨S8388608x1, .i32⟩ : BufTy).Contents (Elt F) → (⟨S8388608x1, .i32⟩ : BufTy).Contents (Elt F) → (⟨S8388608x2, .i32⟩ : BufTy).Contents (Elt F)),
    reshape main_v4 main_v5 rfl shapeCasts_S8388608x2_S16777216,
    unary main_v5 main_v6 (sitofp .f32 : (⟨S16777216, .i32⟩ : BufTy).Contents (Elt F) → (⟨S16777216, .f32⟩ : BufTy).Contents (Elt F)),
    reshape main_v6 main_v7 rfl shapeCasts_S16777216_S4096x32x128,
    unary main_arg2 main_v8 (broadcastInDim S4096x32x1 ![0, 1] bcast_S4096x32_S4096x32x1_0_1 : (⟨S4096x32, .f32⟩ : BufTy).Contents (Elt F) → (⟨S4096x32x1, .f32⟩ : BufTy).Contents (Elt F)),
    unary main_arg3 main_v9 (broadcastInDim S4096x32x1 ![0, 1] bcast_S4096x32_S4096x32x1_0_1 : (⟨S4096x32, .i32⟩ : BufTy).Contents (Elt F) → (⟨S4096x32x1, .i32⟩ : BufTy).Contents (Elt F)),
    unary main_v9 main_v10 (sitofp .f32 : (⟨S4096x32x1, .i32⟩ : BufTy).Contents (Elt F) → (⟨S4096x32x1, .f32⟩ : BufTy).Contents (Elt F)),
    unary main_v10 main_v11 (broadcastInDim S4096x32x128 ![0, 1, 2] bcast_S4096x32x1_S4096x32x128_0_1_2 : (⟨S4096x32x1, .f32⟩ : BufTy).Contents (Elt F) → (⟨S4096x32x128, .f32⟩ : BufTy).Contents (Elt F)),
    binary main_v7 main_v11 main_v12 (subf : (⟨S4096x32x128, .f32⟩ : BufTy).Contents (Elt F) → (⟨S4096x32x128, .f32⟩ : BufTy).Contents (Elt F) → (⟨S4096x32x128, .f32⟩ : BufTy).Contents (Elt F)),
    unary main_v8 main_v13 (broadcastInDim S4096x32x128 ![0, 1, 2] bcast_S4096x32x1_S4096x32x128_0_1_2 : (⟨S4096x32x1, .f32⟩ : BufTy).Contents (Elt F) → (⟨S4096x32x128, .f32⟩ : BufTy).Contents (Elt F)),
    binary main_v13 main_v12 main_v14 (mulf : (⟨S4096x32x128, .f32⟩ : BufTy).Contents (Elt F) → (⟨S4096x32x128, .f32⟩ : BufTy).Contents (Elt F) → (⟨S4096x32x128, .f32⟩ : BufTy).Contents (Elt F)),
    reshape main_v14 main_v15 rfl shapeCasts_S4096x32x128_S4096x4096,
    binary main_arg0 main_v15 main_v16 ((fun l r => Host.dotGeneral dot_S8x2048x4096_S4096x4096_S8x2048x4096_2_1_01_0_n_n none l r) : (⟨S8x2048x4096, .f32⟩ : BufTy).Contents (Elt F) → (⟨S4096x4096, .f32⟩ : BufTy).Contents (Elt F) → (⟨S8x2048x4096, .f32⟩ : BufTy).Contents (Elt F)),
    unary main_arg4 main_v17 (broadcastInDim S1x1x4096 ![2] bcast_S4096_S1x1x4096_2 : (⟨S4096, .f32⟩ : BufTy).Contents (Elt F) → (⟨S1x1x4096, .f32⟩ : BufTy).Contents (Elt F)),
    unary main_v17 main_v18 (broadcastInDim S8x2048x4096 ![0, 1, 2] bcast_S1x1x4096_S8x2048x4096_0_1_2 : (⟨S1x1x4096, .f32⟩ : BufTy).Contents (Elt F) → (⟨S8x2048x4096, .f32⟩ : BufTy).Contents (Elt F)),
    binary main_v16 main_v18 main_v19 (addf : (⟨S8x2048x4096, .f32⟩ : BufTy).Contents (Elt F) → (⟨S8x2048x4096, .f32⟩ : BufTy).Contents (Elt F) → (⟨S8x2048x4096, .f32⟩ : BufTy).Contents (Elt F)) ]

-- fifty-eight binds re-associated: the rewrite under the chain recurses once per statement
set_option maxRecDepth 2048 in
/-- The entry function is that straight line: each callee's definition unfolded at its call and the call's record
    at its fields, both sides are one chain of steps once sequencing is re-associated. -/
theorem main_eq (c : Dev nD) : main (F := F) c = seq ops := by
  simp only [main, fn_remainder.body, fn_where.body, fn_floor_divide.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨nullary_bufs_sub .., unary_bufs_sub .., nullary_bufs_sub .., binary_bufs_sub .., nullary_bufs_sub .., ternary_bufs_sub ..,
    unary_bufs_sub .., binary_bufs_sub .., nullary_bufs_sub .., unary_bufs_sub .., binary_bufs_sub .., nullary_bufs_sub ..,
    unary_bufs_sub .., binary_bufs_sub .., nullary_bufs_sub .., binary_bufs_sub .., unary_bufs_sub .., binary_bufs_sub ..,
    binary_bufs_sub .., unary_bufs_sub .., binary_bufs_sub .., ternary_bufs_sub .., nullary_bufs_sub .., unary_bufs_sub ..,
    unary_bufs_sub .., binary_bufs_sub .., unary_bufs_sub .., unary_bufs_sub .., unary_bufs_sub .., binary_bufs_sub ..,
    unary_bufs_sub .., binary_bufs_sub .., nullary_bufs_sub .., unary_bufs_sub .., binary_bufs_sub .., binary_bufs_sub ..,
    nullary_bufs_sub .., unary_bufs_sub .., binary_bufs_sub .., ternary_bufs_sub .., unary_bufs_sub .., unary_bufs_sub ..,
    binary_bufs_sub .., reshape_bufs_sub .., unary_bufs_sub .., reshape_bufs_sub .., unary_bufs_sub .., unary_bufs_sub ..,
    unary_bufs_sub .., unary_bufs_sub .., binary_bufs_sub .., unary_bufs_sub .., binary_bufs_sub .., reshape_bufs_sub ..,
    binary_bufs_sub .., unary_bufs_sub .., unary_bufs_sub .., binary_bufs_sub ..⟩

/-- The reference's result as a function of the activations, a weight matrix and the bias: the contraction of
    the activations' last axis with the weights' second, plus the bias spread along the last axis. -/
def refOut (x : FVec F S8x2048x4096 .f32) (w : FVec F S4096x4096 .f32) (b : FVec F S4096 .f32) : FVec F S8x2048x4096 .f32 :=
  addf (Host.dotGeneral dot_S8x2048x4096_S4096x4096_S8x2048x4096_2_1_01_0_n_n none x w)
    (broadcastInDim S8x2048x4096 ![0, 1, 2] bcast_S1x1x4096_S8x2048x4096_0_1_2
      (broadcastInDim S1x1x4096 ![2] bcast_S4096_S1x1x4096_2 b))

/-- Two one-column arrays side by side, as a function of the two columns: the entry function's concatenation
    read as a binary operation, so that an equation about either column can be used under it. -/
def cols {α : Type} (a b : S8388608x1.Idx → α) : S8388608x2.Idx → α :=
  concatenate S8388608x2 1 [⟨S8388608x1, a⟩, ⟨S8388608x1, b⟩] concatenates_S8388608x1_S8388608x1_S8388608x2_d1

/-- It is the concatenation of the literal pair, by definition. -/
theorem cols_eq {α : Type} (a b : S8388608x1.Idx → α) :
    concatenate S8388608x2 1 [⟨S8388608x1, a⟩, ⟨S8388608x1, b⟩] concatenates_S8388608x1_S8388608x1_S8388608x2_d1 = cols a b := rfl

/-- The fold read at the result buffer: each operation's result at its own buffer is its function of its
    operands' contents and at any other buffer what was there (two buffers told apart as references), so the
    result is the composed term of the arguments' contents — which is `refOut` at the dequantised weights, term
    for term (a callee's typed references move contents along equations of buffer types that hold by
    computation). -/
theorem out_eq (V : Valuation τ sig (Elt F)) :
    after ops V (main_v19 : DevRef τ sig)
      = refOut (V (main_arg0 : DevRef τ sig))
          (Cert.QLin.weightsWide (V (main_arg1 : DevRef τ sig)) (V (main_arg2 : DevRef τ sig)) (V (main_arg3 : DevRef τ sig)))
          (V (main_arg4 : DevRef τ sig)) := by
  simp (disch := decide) only [after_cons, after_nil,
      nullary_result', unary_result', binary_result', ternary_result', reshape_result',
      nullary_result_ne', unary_result_ne', binary_result_ne', ternary_result_ne', reshape_result_ne', cols_eq]
  rfl

/-- No operation writes argument 0's buffer. -/
theorem arg0_eq (V : Valuation τ sig (Elt F)) :
    after ops V (main_arg0 : DevRef τ sig) = (V (main_arg0 : DevRef τ sig)) := by
  simp (disch := decide) only [after_cons, after_nil,
      nullary_result', unary_result', binary_result', ternary_result', reshape_result',
      nullary_result_ne', unary_result_ne', binary_result_ne', ternary_result_ne', reshape_result_ne', cols_eq]

/-- No operation writes argument 1's buffer. -/
theorem arg1_eq (V : Valuation τ sig (Elt F)) :
    after ops V (main_arg1 : DevRef τ sig) = (V (main_arg1 : DevRef τ sig)) := by
  simp (disch := decide) only [after_cons, after_nil,
      nullary_result', unary_result', binary_result', ternary_result', reshape_result',
      nullary_result_ne', unary_result_ne', binary_result_ne', ternary_result_ne', reshape_result_ne', cols_eq]

/-- No operation writes argument 2's buffer. -/
theorem arg2_eq (V : Valuation τ sig (Elt F)) :
    after ops V (main_arg2 : DevRef τ sig) = (V (main_arg2 : DevRef τ sig)) := by
  simp (disch := decide) only [after_cons, after_nil,
      nullary_result', unary_result', binary_result', ternary_result', reshape_result',
      nullary_result_ne', unary_result_ne', binary_result_ne', ternary_result_ne', reshape_result_ne', cols_eq]

/-- No operation writes argument 3's buffer. -/
theorem arg3_eq (V : Valuation τ sig (Elt F)) :
    after ops V (main_arg3 : DevRef τ sig) = (V (main_arg3 : DevRef τ sig)) := by
  simp (disch := decide) only [after_cons, after_nil,
      nullary_result', unary_result', binary_result', ternary_result', reshape_result',
      nullary_result_ne', unary_result_ne', binary_result_ne', ternary_result_ne', reshape_result_ne', cols_eq]

/-- No operation writes argument 4's buffer. -/
theorem arg4_eq (V : Valuation τ sig (Elt F)) :
    after ops V (main_arg4 : DevRef τ sig) = (V (main_arg4 : DevRef τ sig)) := by
  simp (disch := decide) only [after_cons, after_nil,
      nullary_result', unary_result', binary_result', ternary_result', reshape_result',
      nullary_result_ne', unary_result_ne', binary_result_ne', ternary_result_ne', reshape_result_ne', cols_eq]

/-- On every device, for any float values, from any memory with zero counters: every weakly fair execution of the
    entry function terminates with the result buffer at `refOut` of the activations, the dequantised weights of
    the packed words, scales and zero points, and the bias, and with the five arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v19) = refOut (m ((c.tc : Thread nD τ).loc main_arg0))
          (Cert.QLin.weightsWide (m ((c.tc : Thread nD τ).loc main_arg1)) (m ((c.tc : Thread nD τ).loc main_arg2)) (m ((c.tc : Thread nD τ).loc main_arg3)))
          (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v19).trans (out_eq _),
      (h c main_arg0).trans (arg0_eq _),
      (h c main_arg1).trans (arg1_eq _),
      (h c main_arg2).trans (arg2_eq _),
      (h c main_arg3).trans (arg3_eq _),
      (h c main_arg4).trans (arg4_eq _)⟩)
    (run_seq scopedRefs_eq scopedSems_eq defs main (fun _ => ops) main_eq (fun _ => ops_sub) m ρ)

end Cert.ReferenceIdeal.RefRun

end
-- ==== Proof.RefRead.lean ====
/-
  The reference's result read at one index, at the extended reals.

  The result is the contraction of the activations' last axis with the weight matrix's second, plus the bias spread
  along the last axis. At the ideal values a contraction read at an output index is the sum, over the contracted
  coordinate, of the products of the two operands' entries; with one contracted axis that coordinate is a number
  below 4096, and the operands' indices at (p, s, o) and k are (p, s, k) and (o, k). The bias passes through two
  broadcasts: onto the last axis of a [1, 1, 4096] array, then along the two unit axes; read at (p, s, o) it is the
  bias at o. Hence

      out[p, s, o] = Σ_k x[p, s, k] * w[o, k] + b[o].
-/
import proofs.«121621_j74594991997151_1_alg».proof.Proof.RefRun
import Idealize.ShloMosaic.PureOps.Ideal.Laws
import Idealize.ShloMosaic.Lib.ValueIdx
import Idealize.ShloMosaic.Lib.Pipeline.Value

noncomputable section

namespace Cert.ReferenceIdeal.RefRead

open Cert.ReferenceIdeal Cert.ReferenceIdeal.Gen Idealize.ShloMosaic Idealize.ShloMosaic.ValueIdx
open scoped BigOperators

/-- The bias spread over the batch and the sequence axes reads, at (p, s, o), the bias at o: the first broadcast
    puts it on the last axis of a [1, 1, 4096] array, the second stretches the two unit axes. -/
theorem bias_apply (b : FVec Ideal S4096 .f32) (p : Fin 8) (s : Fin 2048) (o : Fin 4096) :
    broadcastInDim S8x2048x4096 ![0, 1, 2] bcast_S1x1x4096_S8x2048x4096_0_1_2
        (broadcastInDim S1x1x4096 ![2] bcast_S4096_S1x1x4096_2 b) (ix3 p s o) = b (ix1 o) := by
  rw [broadcastInDim_apply ![0, 1, 2] bcast_S1x1x4096_S8x2048x4096_0_1_2 _ (ix3 p s o) (ix3 (0 : Fin 1) (0 : Fin 1) o)
      (fun a => by match a with | ⟨0, _⟩ => rfl | ⟨1, _⟩ => rfl | ⟨2, _⟩ => rfl),
    broadcastInDim_apply ![2] bcast_S4096_S1x1x4096_2 b (ix3 (0 : Fin 1) (0 : Fin 1) o) (ix1 o)
      (fun a => by match a with | ⟨0, _⟩ => rfl)]

/-- The contraction read at (p, s, o): the one contracted coordinate k runs over the activations' last axis and
    the weights' second, so the entry is the sum over k of x[p, s, k] * w[o, k]. -/
theorem dot_apply (x : FVec Ideal S8x2048x4096 .f32) (w : FVec Ideal S4096x4096 .f32) (p : Fin 8) (s : Fin 2048) (o : Fin 4096) :
    Host.dotGeneral dot_S8x2048x4096_S4096x4096_S8x2048x4096_2_1_01_0_n_n none x w (ix3 p s o)
      = ∑ k : Fin 4096, (x (ix3 p s k) : EReal) * (w (ix2 o k) : EReal) := by
  show FloatOps.dotGeneral _ none _ x w (ix3 p s o) = _
  rw [Ideal.dotGeneral_apply,
    ← Equiv.sum_comp (contrEquiv1 dot_S8x2048x4096_S4096x4096_S8x2048x4096_2_1_01_0_n_n 4096 rfl rfl).symm]
  refine Finset.sum_congr rfl fun k _ => ?_
  have ck := contrEquiv1_symm_val dot_S8x2048x4096_S4096x4096_S8x2048x4096_2_1_01_0_n_n 4096 rfl rfl k
  have hl : dot_S8x2048x4096_S4096x4096_S8x2048x4096_2_1_01_0_n_n.lhsIdx (ix3 p s o)
      ((contrEquiv1 _ 4096 rfl rfl).symm k) = ix3 p s k := by
    funext ax; apply Fin.ext
    match ax with
    | ⟨0, _⟩ => simp [DotDims.lhsIdx, dot_S8x2048x4096_S4096x4096_S8x2048x4096_2_1_01_0_n_n]; rfl
    | ⟨1, _⟩ => simp [DotDims.lhsIdx, dot_S8x2048x4096_S4096x4096_S8x2048x4096_2_1_01_0_n_n]; rfl
    | ⟨2, _⟩ => simp [DotDims.lhsIdx, dot_S8x2048x4096_S4096x4096_S8x2048x4096_2_1_01_0_n_n]; exact ck
  have hr : dot_S8x2048x4096_S4096x4096_S8x2048x4096_2_1_01_0_n_n.rhsIdx (ix3 p s o)
      ((contrEquiv1 _ 4096 rfl rfl).symm k) = ix2 o k := by
    funext ax; apply Fin.ext
    match ax with
    | ⟨0, _⟩ => simp [DotDims.rhsIdx, dot_S8x2048x4096_S4096x4096_S8x2048x4096_2_1_01_0_n_n]; rfl
    | ⟨1, _⟩ => simp [DotDims.rhsIdx, dot_S8x2048x4096_S4096x4096_S8x2048x4096_2_1_01_0_n_n]; exact ck
  rw [hl, hr]

/-- The reference's result at (p, s, o): the row of activations against the o-th row of the weights, plus the
    o-th bias. -/
theorem refOut_apply (x : FVec Ideal S8x2048x4096 .f32) (w : FVec Ideal S4096x4096 .f32) (b : FVec Ideal S4096 .f32)
    (p : Fin 8) (s : Fin 2048) (o : Fin 4096) :
    Cert.ReferenceIdeal.RefRun.refOut (F := Ideal) x w b (ValueIdx.ix3 p s o)
      = (∑ k : Fin 4096, (x (ValueIdx.ix3 p s k) : EReal) * (w (ValueIdx.ix2 o k) : EReal)) + (b (ValueIdx.ix1 o) : EReal) := by
  unfold Cert.ReferenceIdeal.RefRun.refOut
  rw [addf_apply, dot_apply, bias_apply]

end Cert.ReferenceIdeal.RefRead

end
-- ==== Proof.LibAxisLayout.lean ====
/-
  Arrays of three axes re-laid, each operation read at an index given by its coordinates.

  * two leading axes merged or split: an [A,B,m] array viewed as [N,m] with N = A·B has, in row b·B+t and column j,
    the entry (b,t,j); and back;
  * a unit axis added or dropped: [N,m] ↔ [N,1,m] and [A,B] → [A,B,1];
  * a broadcast between arrays of three axes: each coordinate is kept, or is 0 where the operand's axis has extent one;
  * a sum along the last or the middle axis as a finite sum over that coordinate;
  * a concatenation along the last axis of arrays of three axes, and along the rows of matrices, read in a chosen piece.
-/
import Idealize.ShloMosaic.Lib.Pipeline.Value
import Idealize.ShloMosaic.Lib.ValueIdx
import Idealize.ShloMosaic.PureOps.Ideal.Laws

noncomputable section

open scoped BigOperators

namespace Idealize.ShloMosaic.AxisLayout

open Idealize.ShloMosaic Idealize.ShloMosaic.ValueIdx

variable {α : Type}

/-! ## Two leading axes merged or split -/

/-- An [A,B,m] array viewed as [N,m]: row `b·B+t`, column `j` is the entry (b,t,j). -/
theorem cast_merge_apply {A B N m : ℕ} (x : (⟨3, ![A, B, m]⟩ : Shape).Idx → α)
    (h : (⟨3, ![A, B, m]⟩ : Shape).ShapeCasts ⟨2, ![N, m]⟩) (b : Fin A) (t : Fin B) (j : Fin m) (r : Fin N)
    (hr : r.val = b.val * B + t.val) :
    shapeCast ⟨2, ![N, m]⟩ x h (ix2 r j) = x (ix3 b t j) :=
  shapeCast_apply x h _ _ (by
    rw [Shape.rowMajor_val_three, Shape.rowMajor_val_two]
    show (b.val * B + t.val) * m + j.val = r.val * m + j.val
    rw [hr])

/-- An [N,m] array viewed as [A,B,m]: the entry (b,t,j) is row `b·B+t`, column `j`. -/
theorem cast_split_apply {A B N m : ℕ} (x : (⟨2, ![N, m]⟩ : Shape).Idx → α)
    (h : (⟨2, ![N, m]⟩ : Shape).ShapeCasts ⟨3, ![A, B, m]⟩) (b : Fin A) (t : Fin B) (j : Fin m) (r : Fin N)
    (hr : r.val = b.val * B + t.val) :
    shapeCast ⟨3, ![A, B, m]⟩ x h (ix3 b t j) = x (ix2 r j) :=
  shapeCast_apply x h _ _ (by
    rw [Shape.rowMajor_val_three, Shape.rowMajor_val_two]
    show r.val * m + j.val = (b.val * B + t.val) * m + j.val
    rw [hr])

/-! ## A unit axis added or dropped -/

/-- An [N,m] array viewed as [N,1,m]. -/
theorem cast_addMid_apply {N m : ℕ} (x : (⟨2, ![N, m]⟩ : Shape).Idx → α)
    (h : (⟨2, ![N, m]⟩ : Shape).ShapeCasts ⟨3, ![N, 1, m]⟩) (r : Fin N) (z : Fin 1) (j : Fin m) :
    shapeCast ⟨3, ![N, 1, m]⟩ x h (ix3 r z j) = x (ix2 r j) :=
  shapeCast_apply x h _ _ (by
    rw [Shape.rowMajor_val_three, Shape.rowMajor_val_two]
    show r.val * m + j.val = (r.val * 1 + z.val) * m + j.val
    have hz : z.val = 0 := by omega
    rw [hz, Nat.mul_one, Nat.add_zero])

/-- An [N,1,m] array viewed as [N,m]. -/
theorem cast_dropMid_apply {N m : ℕ} (x : (⟨3, ![N, 1, m]⟩ : Shape).Idx → α)
    (h : (⟨3, ![N, 1, m]⟩ : Shape).ShapeCasts ⟨2, ![N, m]⟩) (r : Fin N) (z : Fin 1) (j : Fin m) :
    shapeCast ⟨2, ![N, m]⟩ x h (ix2 r j) = x (ix3 r z j) :=
  shapeCast_apply x h _ _ (by
    rw [Shape.rowMajor_val_three, Shape.rowMajor_val_two]
    show (r.val * 1 + z.val) * m + j.val = r.val * m + j.val
    have hz : z.val = 0 := by omega
    rw [hz, Nat.mul_one, Nat.add_zero])

/-- An [A,B] array viewed as [A,B,1]. -/
theorem cast_addLast_apply {A B : ℕ} (x : (⟨2, ![A, B]⟩ : Shape).Idx → α)
    (h : (⟨2, ![A, B]⟩ : Shape).ShapeCasts ⟨3, ![A, B, 1]⟩) (a : Fin A) (b : Fin B) (z : Fin 1) :
    shapeCast ⟨3, ![A, B, 1]⟩ x h (ix3 a b z) = x (ix2 a b) :=
  shapeCast_apply x h _ _ (by
    rw [Shape.rowMajor_val_three, Shape.rowMajor_val_two]
    show a.val * B + b.val = (a.val * B + b.val) * 1 + z.val
    have hz : z.val = 0 := by omega
    rw [hz, Nat.mul_one, Nat.add_zero])

/-! ## A broadcast between arrays of three axes -/

/-- A broadcast of an [a0,a1,a2] array to [b0,b1,b2], read at (j0,j1,j2): the operand at the coordinates that are
    `j`'s where the operand's axis is not of extent one, and 0 where it is. -/
theorem bcast3_apply {a0 a1 a2 b0 b1 b2 : ℕ} (x : (⟨3, ![a0, a1, a2]⟩ : Shape).Idx → α)
    (h : (⟨3, ![a0, a1, a2]⟩ : Shape).Broadcasts ⟨3, ![b0, b1, b2]⟩)
    (j0 : Fin b0) (j1 : Fin b1) (j2 : Fin b2) (k0 : Fin a0) (k1 : Fin a1) (k2 : Fin a2)
    (h0 : k0.val = if a0 = 1 then 0 else j0.val) (h1 : k1.val = if a1 = 1 then 0 else j1.val)
    (h2 : k2.val = if a2 = 1 then 0 else j2.val) :
    broadcastTo ⟨3, ![b0, b1, b2]⟩ x h (ix3 j0 j1 j2) = x (ix3 k0 k1 k2) :=
  broadcastTo_apply x h _ _ (fun a => by
    match a with
    | ⟨0, _⟩ => exact h0
    | ⟨1, _⟩ => exact h1
    | ⟨2, _⟩ => exact h2)

/-! ## A sum along one axis -/

/-- The reduced index (a,b) with the last coordinate `k` put back is (a,b,k). -/
theorem lift_last {A B m : ℕ} (h : (⟨3, ![A, B, m]⟩ : Shape).Reduces [2] (⟨2, ![A, B]⟩ : Shape)) (a : Fin A) (b : Fin B)
    (k : Fin ((⟨3, ![A, B, m]⟩ : Shape).size 2)) : h.lift (ix2 a b) k = ix3 a b (⟨k.val, k.isLt⟩ : Fin m) := by
  funext c; apply Fin.ext
  fin_cases c <;> rfl

/-- The reduced index (a,e) with the middle coordinate `k` put back is (a,k,e). -/
theorem lift_mid {A B m : ℕ} (h : (⟨3, ![A, B, m]⟩ : Shape).Reduces [1] (⟨2, ![A, m]⟩ : Shape)) (a : Fin A) (e : Fin m)
    (k : Fin ((⟨3, ![A, B, m]⟩ : Shape).size 1)) : h.lift (ix2 a e) k = ix3 a (⟨k.val, k.isLt⟩ : Fin B) e := by
  funext c; apply Fin.ext
  fin_cases c <;> rfl

/-- A sum along the last axis of an [A,B,m] array, at (a,b): the sum over `k` of the entries (a,b,k). -/
theorem sum_last_apply {A B m : ℕ} {φ : FTy} (x : FVec Ideal (⟨3, ![A, B, m]⟩ : Shape) φ) (acc : BitVec φ.bits)
    (h : (⟨3, ![A, B, m]⟩ : Shape).Reduces [2] (⟨2, ![A, B]⟩ : Shape)) (hφ : FKind.Formats φ) (hacc : acc = FKind.add.neutral φ hφ)
    (a : Fin A) (b : Fin B) :
    multiReduction .add [2] (⟨2, ![A, B]⟩ : Shape) x acc h hφ hacc (ix2 a b) = ∑ k : Fin m, (x (ix3 a b k) : EReal) :=
  (Ideal.multiReduction_add_single x acc h hφ hacc (ix2 a b)).trans
    (Finset.sum_congr rfl fun k _ => congrArg x (lift_last h a b k))

/-- A sum along the middle axis of an [A,B,m] array, at (a,e): the sum over `k` of the entries (a,k,e). -/
theorem sum_mid_apply {A B m : ℕ} {φ : FTy} (x : FVec Ideal (⟨3, ![A, B, m]⟩ : Shape) φ) (acc : BitVec φ.bits)
    (h : (⟨3, ![A, B, m]⟩ : Shape).Reduces [1] (⟨2, ![A, m]⟩ : Shape)) (hφ : FKind.Formats φ) (hacc : acc = FKind.add.neutral φ hφ)
    (a : Fin A) (e : Fin m) :
    multiReduction .add [1] (⟨2, ![A, m]⟩ : Shape) x acc h hφ hacc (ix2 a e) = ∑ k : Fin B, (x (ix3 a k e) : EReal) :=
  (Ideal.multiReduction_add_single x acc h hφ hacc (ix2 a e)).trans
    (Finset.sum_congr rfl fun k _ => congrArg x (lift_mid h a e k))

/-- The sum along the last axis as a kernel prints it for f32: the accumulator the literal zero pattern, its side
    condition the plain equation of two literals. -/
theorem sum_last_zero {A B m : ℕ} (x : FVec Ideal (⟨3, ![A, B, m]⟩ : Shape) .f32)
    (h : (⟨3, ![A, B, m]⟩ : Shape).Reduces [2] (⟨2, ![A, B]⟩ : Shape)) (hφ : FKind.Formats .f32)
    (hacc : (0x00000000#32 : BitVec 32) = 0x00000000#32) (a : Fin A) (b : Fin B) :
    multiReduction .add [2] (⟨2, ![A, B]⟩ : Shape) x 0x00000000#32 h hφ hacc (ix2 a b) = ∑ k : Fin m, (x (ix3 a b k) : EReal) :=
  sum_last_apply x 0x00000000#32 h hφ hacc a b

/-- The sum along the middle axis as a kernel prints it for f32. -/
theorem sum_mid_zero {A B m : ℕ} (x : FVec Ideal (⟨3, ![A, B, m]⟩ : Shape) .f32)
    (h : (⟨3, ![A, B, m]⟩ : Shape).Reduces [1] (⟨2, ![A, m]⟩ : Shape)) (hφ : FKind.Formats .f32)
    (hacc : (0x00000000#32 : BitVec 32) = 0x00000000#32) (a : Fin A) (e : Fin m) :
    multiReduction .add [1] (⟨2, ![A, m]⟩ : Shape) x 0x00000000#32 h hφ hacc (ix2 a e) = ∑ k : Fin B, (x (ix3 a k e) : EReal) :=
  sum_mid_apply x 0x00000000#32 h hφ hacc a e

/-! ## A concatenation read in a chosen piece -/

/-- A concatenation of arrays of three axes along the LAST axis, read at (a,b,r) with `r` in piece `k`: that piece
    at (a,b,j), where `j` is `r` less the extents `pre` of the pieces before it. -/
theorem concat_last_piece {A B M : ℕ} (xs : List ((s : Shape) × (s.Idx → α)))
    (h : Shape.Concatenates (xs.map (·.1)) (⟨3, ![A, B, M]⟩ : Shape) 2)
    (k : ℕ) (hk : k < xs.length) {m₁ : ℕ} (x₁ : (⟨3, ![A, B, m₁]⟩ : Shape).Idx → α)
    (hxk : xs[k] = ⟨(⟨3, ![A, B, m₁]⟩ : Shape), x₁⟩) (pre : ℕ)
    (hpre : (((xs.take k).map (·.1)).map fun s : Shape =>
      if h : s.rank = (⟨3, ![A, B, M]⟩ : Shape).rank then s.size ((2 : Fin (⟨3, ![A, B, M]⟩ : Shape).rank).cast h.symm) else 0).sum = pre)
    (a : Fin A) (b : Fin B) (j : Fin m₁) (r : Fin M) (hr : pre + j.val = r.val) :
    concatenate (⟨3, ![A, B, M]⟩ : Shape) 2 xs h (ix3 a b r) = x₁ (ix3 a b j) :=
  concatenate_apply_piece 2 xs h (ix3 a b r) k hk _ x₁ hxk rfl pre hpre (ix3 a b j)
    (fun c hc => by
      match c with
      | ⟨0, _⟩ => rfl
      | ⟨1, _⟩ => rfl
      | ⟨2, _⟩ => exact absurd rfl hc)
    hr

/-- A concatenation of matrices along the ROWS, read at (r,c) with `r` in piece `k`: that piece at (j,c). -/
theorem concat_rows_piece {M N : ℕ} (xs : List ((s : Shape) × (s.Idx → α)))
    (h : Shape.Concatenates (xs.map (·.1)) (⟨2, ![M, N]⟩ : Shape) 0)
    (k : ℕ) (hk : k < xs.length) {m₁ : ℕ} (x₁ : (⟨2, ![m₁, N]⟩ : Shape).Idx → α)
    (hxk : xs[k] = ⟨(⟨2, ![m₁, N]⟩ : Shape), x₁⟩) (pre : ℕ)
    (hpre : (((xs.take k).map (·.1)).map fun s : Shape =>
      if h : s.rank = (⟨2, ![M, N]⟩ : Shape).rank then s.size ((0 : Fin (⟨2, ![M, N]⟩ : Shape).rank).cast h.symm) else 0).sum = pre)
    (j : Fin m₁) (c : Fin N) (r : Fin M) (hr : pre + j.val = r.val) :
    concatenate (⟨2, ![M, N]⟩ : Shape) 0 xs h (ix2 r c) = x₁ (ix2 j c) :=
  concatenate_apply_piece 0 xs h (ix2 r c) k hk _ x₁ hxk rfl pre hpre (ix2 j c)
    (fun d hd => by
      match d with
      | ⟨0, _⟩ => exact absurd rfl hd
      | ⟨1, _⟩ => rfl)
    hr

end Idealize.ShloMosaic.AxisLayout

end
-- ==== Proof.LibTileSum.lean ====
/-
  Sums over tiled and over unit-axis index sets, over any additive commutative monoid.

  * A sum over the indices of a rank-4 shape [n0, 1, n2, n3] is the triple sum over its coordinates on axes 0, 2, 3.
  * A sum over a * b positions is the sum over a tiles of the sum over the b positions of each tile, position r of
    tile t being b * t + r.
  * A sequence that starts at zero and adds f n at step n is the running sum of f.
-/
import Idealize.ShloMosaic.Lib.ValueIdx

noncomputable section

open scoped BigOperators

namespace Cert.Lib.TileSum

open Idealize.ShloMosaic Idealize.ShloMosaic.ValueIdx

/-! ## A rank-4 index set with a unit second axis is the product of its three other coordinate ranges -/

/-- An index of shape `[n0, 1, n2, n3]` is its coordinates on axes 0, 2, 3 (axis 1 has one point). -/
def idxEquiv4u {n0 n2 n3 : Nat} : (⟨4, ![n0, 1, n2, n3]⟩ : Shape).Idx ≃ Fin n0 × Fin n2 × Fin n3 where
  toFun i := (i 0, i 2, i 3)
  invFun p := ix4 p.1 (0 : Fin 1) p.2.1 p.2.2
  left_inv i := by
    funext a
    match a with
    | ⟨0, _⟩ => rfl
    | ⟨1, _⟩ => exact Subsingleton.elim (α := Fin 1) _ _
    | ⟨2, _⟩ => rfl
    | ⟨3, _⟩ => rfl
  right_inv _ := rfl

/-- A sum over every index of shape `[n0, 1, n2, n3]` is the triple sum over the coordinates on axes 0, 2, 3. -/
theorem sum_idx4u {M : Type*} [AddCommMonoid M] {n0 n2 n3 : Nat} (f : (⟨4, ![n0, 1, n2, n3]⟩ : Shape).Idx → M) :
    ∑ i, f i = ∑ a : Fin n0, ∑ b : Fin n2, ∑ c : Fin n3, f (ix4 a (0 : Fin 1) b c) := by
  rw [← Equiv.sum_comp (idxEquiv4u (n0 := n0) (n2 := n2) (n3 := n3)).symm f, Fintype.sum_prod_type]
  refine Finset.sum_congr rfl fun a _ => ?_
  rw [Fintype.sum_prod_type]
  rfl

/-! ## Tiles -/

section Laws
variable {M : Type*} [AddCommMonoid M]

/-- Position `r` of tile `t`, among `a` tiles of `b` positions each, is below `a * b`. -/
theorem tile_lt {a b t r : ℕ} (ht : t < a) (hr : r < b) : b * t + r < a * b :=
  calc b * t + r < b * t + b := Nat.add_lt_add_left hr _
    _ = b * (t + 1) := (Nat.mul_succ b t).symm
    _ ≤ b * a := Nat.mul_le_mul_left b ht
    _ = a * b := Nat.mul_comm b a

/-- A sum over `a * b` positions is the sum over `a` tiles of the sum over the `b` positions of each tile. -/
theorem sum_fin_tiles (a b : ℕ) (g : Fin (a * b) → M) :
    ∑ n, g n = ∑ t : Fin a, ∑ r : Fin b, g ⟨b * t.val + r.val, tile_lt t.isLt r.isLt⟩ := by
  rw [← Equiv.sum_comp (finProdFinEquiv (m := a) (n := b)) g, Fintype.sum_prod_type]
  refine Finset.sum_congr rfl fun t _ => Finset.sum_congr rfl fun r _ => congrArg g (Fin.ext ?_)
  show r.val + b * t.val = b * t.val + r.val
  exact Nat.add_comm _ _

/-- THE FOLD LAW: a sequence that starts at zero and adds `f n` at step `n` is the running sum of `f`. -/
theorem fold_eq_sum (f g : ℕ → M) (h0 : g 0 = 0) (hs : ∀ n, g (n + 1) = g n + f n) (n : ℕ) :
    g n = ∑ i ∈ Finset.range n, f i := by
  induction n with
  | zero => rw [h0, Finset.range_zero, Finset.sum_empty]
  | succ n ih => rw [hs, ih, Finset.sum_range_succ]

end Laws

end Cert.Lib.TileSum

end
-- ==== Proof.LibTilesOfEq.lean ====
/-
  The tiling law for an index range whose size is given as a product.

  A sum over n positions, where n = a * b, is the sum over the a tiles of the sum over the b positions of each tile,
  position r of tile t being b * t + r. The size n is a variable tied to the product by a hypothesis, not the product
  itself: at a literal size such as 8192 = 16 * 512 the law then applies directly to functions on the 8192 positions,
  and the two spellings of the size are related only by that one numeric equation.
-/
import proofs.«121621_j74594991997151_1_alg».proof.Proof.LibTileSum

noncomputable section

open scoped BigOperators

namespace Cert.Lib.TilesOfEq

/-- A sum over the n = a * b positions is the sum over the a tiles of the sum over the b positions b * t + r of each. -/
theorem sum_tiles_of_eq {M : Type*} [AddCommMonoid M] (a b n : ℕ) (h : a * b = n) (g : Fin n → M) :
    ∑ i, g i = ∑ t : Fin a, ∑ r : Fin b,
      g ⟨b * t.val + r.val, by rw [← h]; exact Cert.Lib.TileSum.tile_lt t.isLt r.isLt⟩ := by
  subst h
  exact Cert.Lib.TileSum.sum_fin_tiles a b g

end Cert.Lib.TilesOfEq

end
-- ==== Proof.Bridge.lean ====
/-
  The kernel's result is the reference's.

  At (b, s, o) the kernel's result is the product array at row 2048 b + s and column o:
      bias(o) + sum over kt < 8 of ( sum over r < 512 of x(b, s, 512 kt + r) * w(o, 512 kt + r) ),
  with w the dequantised weights narrowed to bf16; the reference's is
      ( sum over i < 4096 of x(b, s, i) * w'(o, i) ) + bias(o)
  with w' the dequantised weights in f32. On the extended reals w = w' entry by entry, the eight tiles of 512
  columns are the 4096 columns once each, and addition is commutative and associative — infinite terms included, so
  nothing is asked of the inputs.
-/
import proofs.«121621_j74594991997151_1_alg».proof.Proof.KFinal
import proofs.«121621_j74594991997151_1_alg».proof.Proof.KArgs
import proofs.«121621_j74594991997151_1_alg».proof.Proof.KWeights
import proofs.«121621_j74594991997151_1_alg».proof.Proof.Weights
import proofs.«121621_j74594991997151_1_alg».proof.Proof.RefRead
import proofs.«121621_j74594991997151_1_alg».proof.Proof.LibAxisLayout
import proofs.«121621_j74594991997151_1_alg».proof.Proof.LibTilesOfEq
import Idealize.ShloMosaic.Lib.ValueLayout

noncomputable section

open scoped BigOperators
open Idealize.ShloMosaic Idealize.ShloMosaic.TcCoe Idealize.SL.Sem Idealize.ShloMosaic.ValueIdx

namespace Cert.Bridge

open Cert.KernelIdeal Cert.KernelIdeal.Gen Cert.KernelIdeal.KAcc Cert.KernelIdeal.KFinal

/-- Eight tiles of 512 columns are the 4096 columns: the tiled sum of products of row a of X with row o of W is the
    sum over all columns. -/
theorem tiles_sum (X : (⟨2, ![16384, 4096]⟩ : Shape).Idx → EReal) (W : (⟨2, ![4096, 4096]⟩ : Shape).Idx → EReal)
    (a : Fin 16384) (o : Fin 4096) :
    (∑ kt ∈ Finset.range 8, ∑ r : Fin 512, at2 X a.val (512 * kt + r.val) * at2 W o.val (512 * kt + r.val))
      = ∑ k : Fin 4096, X (ix2 a k) * W (ix2 o k) := by
  rw [Cert.Lib.TilesOfEq.sum_tiles_of_eq 8 512 4096 rfl (fun k : Fin 4096 => X (ix2 a k) * W (ix2 o k)),
    ← Fin.sum_univ_eq_sum_range (fun kt => ∑ r : Fin 512, at2 X a.val (512 * kt + r.val) * at2 W o.val (512 * kt + r.val)) 8]
  refine Finset.sum_congr rfl fun t _ => Finset.sum_congr rfl fun r _ => ?_
  have ht := t.isLt
  have hr := r.isLt
  rw [at2_of_lt X a.val (512 * t.val + r.val) a.isLt (by omega), at2_of_lt W o.val (512 * t.val + r.val) o.isLt (by omega)]

variable (m : (ℓ : Loc nD τ sig) → Buf (Elt Ideal) ℓ)

/-- The activations, the wide weights and the bias of core c's arguments, as arrays of extended reals. -/
def acts (c : Dev nD) : S8x2048x4096.Idx → EReal := m ((c : Thread nD τ).loc main_arg0)
def wide (c : Dev nD) : S4096x4096.Idx → EReal :=
  Cert.QLin.weightsWide (F := Ideal) (m ((c : Thread nD τ).loc main_arg1)) (m ((c : Thread nD τ).loc main_arg2))
    (m ((c : Thread nD τ).loc main_arg3))
def bias (c : Dev nD) : S4096.Idx → EReal := m ((c : Thread nD τ).loc main_arg4)

/-- The kernel's result at (b, s, o): the full-width sum of products with the wide weights, plus the bias. -/
theorem kernelOut_apply (c : Dev nD) (p : Fin 8) (s : Fin 2048) (o : Fin 4096) :
    kernelOut m c (ix3 p s o)
      = bias m c (ix1 o) + ∑ k : Fin 4096, acts m c (ix3 p s k) * wide m c (ix2 o k) := by
  have hp := p.isLt
  have hs := s.isLt
  obtain ⟨a, ha⟩ : ∃ a : Fin 16384, a.val = p.val * 2048 + s.val := ⟨⟨p.val * 2048 + s.val, by omega⟩, rfl⟩
  unfold kernelOut
  rw [AxisLayout.cast_split_apply (A := 8) (B := 2048) (N := 16384) (m := 4096) (out2d m c) _ p s o a ha]
  unfold out2d tile
  show at2 (A := 1) (B := 4096) (V m c main_v19) 0 o.val
      + ∑ kt ∈ Finset.range 8, ∑ r : Fin 512,
          at2 (A := 16384) (B := 4096) (V m c main_v18) a.val (512 * kt + r.val)
            * at2 (A := 4096) (B := 4096) (V m c main_v17) o.val (512 * kt + r.val) = _
  rw [tiles_sum (V m c main_v18) (V m c main_v17) a o,
    at2_of_lt (A := 1) (B := 4096) (V m c main_v19) 0 o.val Nat.one_pos o.isLt, KArgs.V_b, KArgs.V_x, KWeights.V_w]
  refine congrArg₂ (fun a b : EReal => a + b) ?_ (Finset.sum_congr rfl fun k _ => congrArg₂ (fun a b : EReal => a * b) ?_ ?_)
  · exact shapeCast_a_1a_apply (a := 4096) (bias m c) _ (⟨0, Nat.one_pos⟩ : Fin 1) o
  · exact AxisLayout.cast_merge_apply (A := 8) (B := 2048) (N := 16384) (m := 4096) (acts m c) _ p s k a ha
  · exact Cert.QLin.weights_eq _ _ _ (ix2 o k)

/-- The kernel's result array is the reference's, of the same argument arrays. -/
theorem result_eq (c : Dev nD) :
    kernelOut m c
      = Cert.ReferenceIdeal.RefRun.refOut (F := Ideal) (m ((c : Thread nD τ).loc main_arg0))
          (Cert.QLin.weightsWide (F := Ideal) (m ((c : Thread nD τ).loc main_arg1)) (m ((c : Thread nD τ).loc main_arg2))
            (m ((c : Thread nD τ).loc main_arg3)))
          (m ((c : Thread nD τ).loc main_arg4)) := by
  funext i
  obtain ⟨p, s, o, rfl⟩ : ∃ (p : Fin 8) (s : Fin 2048) (o : Fin 4096), i = ix3 p s o := ⟨i 0, i 1, i 2, eq_ix3 i⟩
  rw [kernelOut_apply]
  exact ((Cert.ReferenceIdeal.RefRead.refOut_apply _ _ _ p s o).trans (add_comm _ _)).symm

end Cert.Bridge

end
-- ==== Proof.lean ====
/-
  A 4-bit block-wise quantised linear layer: out[b, s, o] = sum over i of x[b, s, i] * w[o, i] + bias[o], the weights
  w[o, 128 g + l] = scale[o, g] * (q[o, g, l] - zero_point[o, g]) dequantised from two nibbles per packed word.

  The kernel program dequantises on the host, narrows the weights to bf16, and runs one pallas_call over the grid
  [8, 2, 8] of [2048, 2048] output blocks and eight reduction tiles of 512 columns, the output block seeded with the
  bias at the first tile and accumulated in place; a last reshape gives [8, 2048, 4096]. The reference dequantises the
  same way (converting the nibbles to floats at a different place), contracts all 4096 columns at once and adds the bias
  last.

  On the extended reals narrowing is the identity, the conversion commutes with the re-indexings, the eight tiles are
  the 4096 columns once each, and + is commutative and associative with the infinities included: the two results are
  equal entry by entry, with nothing asked of the inputs. The three frames: the two kernel programs' by their generated
  frame certificates, the reference's by its run. The ideal pass rewrote nothing, so the preservation claim is trivial.
-/
import proofs.«121621_j74594991997151_1_alg».proof.Defs
import proofs.«121621_j74594991997151_1_alg».proof.Proof.Gen.Kernel
import proofs.«121621_j74594991997151_1_alg».proof.Proof.Gen.Kernel.Frame
import proofs.«121621_j74594991997151_1_alg».proof.Proof.Gen.KernelIdeal
import proofs.«121621_j74594991997151_1_alg».proof.Proof.Gen.KernelIdeal.Frame
import proofs.«121621_j74594991997151_1_alg».proof.Proof.Gen.ReferenceIdeal
import proofs.«121621_j74594991997151_1_alg».proof.Proof.Gen.Pre_finite_inputs
import proofs.«121621_j74594991997151_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run ends with its arguments unchanged. -/
theorem frame_referenceIdeal : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- Both programs end with the same result array: the kernel's tiled, bias-first sum is the reference's sum over all
    columns plus the bias. -/
theorem algebraic : Cert.algebraic_KernelIdeal_ReferenceIdeal := by
  intro m ρ m' ρ' _ hagree
  refine ⟨fun c => Cert.KernelIdeal.KFinal.kernelOut m c, Cert.KernelIdeal.KFinal.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2.1, (hagree c).2.2.2.2]
  exact (Cert.Bridge.result_eq m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
